-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x128 : Shape := ⟨2, ![40000, 128]⟩
abbrev S2x640000 : Shape := ⟨2, ![2, 640000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S40000x128 : S_.BroadcastsInDim S40000x128 (![] : Fin 0 → Fin S40000x128.rank)
  reducesTo_S40000x128_S_d0_1 : S40000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S256x128 .f32) (main_arg6 : FVec F S256x128 .f32) (main_arg7 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x128 .f32 := Host.absf main_arg5
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S256x128 .f32 := Host.absf main_arg6
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S40000x128 .f32) (main_arg1 : IVec S2x640000 32) (main_arg2 : FVec F S128x256 .f32) (main_arg3 : FVec F S128x256 .f32) (main_arg4 : FVec F S256 .f32) (main_arg5 : FVec F S256x128 .f32) (main_arg6 : FVec F S256x128 .f32) (main_arg7 : FVec F S128 .f32) : IVec S_ 1 :=
  let main_v0 : FVec F S40000x128 .f32 := Host.absf main_arg0
  let main_cst : FVec F S_ .f32 := constant S_ .f32 0x7F800000#32
  let main_v1 : FVec F S40000x128 .f32 := broadcastInDim S40000x128 ![] bcast_S_S40000x128 main_cst
  let main_v2 : IVec S40000x128 1 := cmpf .olt main_v0 main_v1
  let main_c : IVec S_ 1 := constantI S_ 1 1#1
  let main_v3 : IVec S_ 1 := (fun x v => Host.reduce IntOp.andi x v reducesTo_S40000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128x256 .f32 := Host.absf main_arg3
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_v13 main_v16
-- ==== Kernel.lean ====
abbrev S40000x128 : Shape := ⟨2, ![40000, 128]⟩
abbrev S2x640000 : Shape := ⟨2, ![2, 640000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S40000 : Shape := ⟨1, ![40000]⟩
abbrev S40000x1 : Shape := ⟨2, ![40000, 1]⟩
abbrev S1x256 : Shape := ⟨2, ![1, 256]⟩
abbrev S40000x256 : Shape := ⟨2, ![40000, 256]⟩
abbrev S4000x128 : Shape := ⟨2, ![4000, 128]⟩
abbrev S4000x256 : Shape := ⟨2, ![4000, 256]⟩
abbrev S640000x256 : Shape := ⟨2, ![640000, 256]⟩
abbrev S1x128 : Shape := ⟨2, ![1, 128]⟩

abbrev nBuf : Space → Nat
  | .hbm => 66
  | .vmem => 18
  | .smem => 0
  | _ => 0

abbrev bufTy : (tb : Table) → Fin (tcTables nBuf tb) → BufTy
  | .hbm, ⟨0, _⟩ => ⟨S40000x128, .f32⟩
  | .hbm, ⟨1, _⟩ => ⟨S2x640000, .i32⟩
  | .hbm, ⟨2, _⟩ => ⟨S128x256, .f32⟩
  | .hbm, ⟨3, _⟩ => ⟨S128x256, .f32⟩
  | .hbm, ⟨4, _⟩ => ⟨S256, .f32⟩
  | .hbm, ⟨5, _⟩ => ⟨S256x128, .f32⟩
  | .hbm, ⟨6, _⟩ => ⟨S256x128, .f32⟩
  | .hbm, ⟨7, _⟩ => ⟨S128, .f32⟩
  | .hbm, ⟨8, _⟩ => ⟨S1x640000, .i32⟩
  | .hbm, ⟨9, _⟩ => ⟨S640000, .i32⟩
  | .hbm, ⟨10, _⟩ => ⟨S1x640000, .i32⟩
  | .hbm, ⟨11, _⟩ => ⟨S640000, .i32⟩
  | .hbm, ⟨12, _⟩ => ⟨S_, .i32⟩
  | .hbm, ⟨13, _⟩ => ⟨S640000, .i32⟩
  | .hbm, ⟨14, _⟩ => ⟨S640000, .i1⟩
  | .hbm, ⟨15, _⟩ => ⟨S_, .i32⟩
  | .hbm, ⟨16, _⟩ => ⟨S640000, .i32⟩
  | .hbm, ⟨17, _⟩ => ⟨S640000, .i32⟩
  | .hbm, ⟨18, _⟩ => ⟨S640000, .i32⟩
  | .hbm, ⟨19, _⟩ => ⟨S640000x1, .i32⟩
  | .hbm, ⟨20, _⟩ => ⟨S640000x128, .f32⟩
  | .hbm, ⟨21, _⟩ => ⟨S_, .f32⟩
  | .hbm, ⟨22, _⟩ => ⟨S40000x128, .f32⟩
  | .hbm, ⟨23, _⟩ => ⟨S640000x1, .i32⟩
  | .hbm, ⟨24, _⟩ => ⟨S40000x128, .f32⟩
  | .hbm, ⟨25, _⟩ => ⟨S_, .f32⟩
  | .hbm, ⟨26, _⟩ => ⟨S640000, .f32⟩
  | .hbm, ⟨27, _⟩ => ⟨S_, .f32⟩
  | .hbm, ⟨28, _⟩ => ⟨S40000, .f32⟩
  | .hbm, ⟨29, _⟩ => ⟨S640000x1, .i32⟩
  | .hbm, ⟨30, _⟩ => ⟨S40000, .f32⟩
  | .hbm, ⟨31, _⟩ => ⟨S_, .f32⟩
  | .hbm, ⟨32, _⟩ => ⟨S40000, .f32⟩
  | .hbm, ⟨33, _⟩ => ⟨S40000, .f32⟩
  | .hbm, ⟨34, _⟩ => ⟨S40000x1, .f32⟩
  | .hbm, ⟨35, _⟩ => ⟨S40000x128, .f32⟩
  | .hbm, ⟨36, _⟩ => ⟨S40000x128, .f32⟩
  | .hbm, ⟨37, _⟩ => ⟨S1x256, .f32⟩
  | .hbm, ⟨38, _⟩ => ⟨S40000x256, .f32⟩
  | .hbm, ⟨39, _⟩ => ⟨S_, .i32⟩
  | .hbm, ⟨40, _⟩ => ⟨S640000, .i32⟩
  | .hbm, ⟨41, _⟩ => ⟨S640000, .i1⟩
  | .hbm, ⟨42, _⟩ => ⟨S_, .i32⟩
  | .hbm, ⟨43, _⟩ => ⟨S640000, .i32⟩
  | .hbm, ⟨44, _⟩ => ⟨S640000, .i32⟩
  | .hbm, ⟨45, _⟩ => ⟨S640000, .i32⟩
  | .hbm, ⟨46, _⟩ => ⟨S640000x1, .i32⟩
  | .hbm, ⟨47, _⟩ => ⟨S640000x256, .f32⟩
  | .hbm, ⟨48, _⟩ => ⟨S_, .f32⟩
  | .hbm, ⟨49, _⟩ => ⟨S40000x256, .f32⟩
  | .hbm, ⟨50, _⟩ => ⟨S640000x1, .i32⟩
  | .hbm, ⟨51, _⟩ => ⟨S40000x256, .f32⟩
  | .hbm, ⟨52, _⟩ => ⟨S_, .f32⟩
  | .hbm, ⟨53, _⟩ => ⟨S640000, .f32⟩
  | .hbm, ⟨54, _⟩ => ⟨S_, .f32⟩
  | .hbm, ⟨55, _⟩ => ⟨S40000, .f32⟩
  | .hbm, ⟨56, _⟩ => ⟨S640000x1, .i32⟩
  | .hbm, ⟨57, _⟩ => ⟨S40000, .f32⟩
  | .hbm, ⟨58, _⟩ => ⟨S_, .f32⟩
  | .hbm, ⟨59, _⟩ => ⟨S40000, .f32⟩
  | .hbm, ⟨60, _⟩ => ⟨S40000, .f32⟩
  | .hbm, ⟨61, _⟩ => ⟨S40000x1, .f32⟩
  | .hbm, ⟨62, _⟩ => ⟨S40000x256, .f32⟩
  | .hbm, ⟨63, _⟩ => ⟨S40000x256, .f32⟩
  | .hbm, ⟨64, _⟩ => ⟨S1x128, .f32⟩
  | .hbm, ⟨65, _⟩ => ⟨S40000x128, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S128x256, .f32⟩
  | .local _ .vmem, ⟨5, _⟩ => ⟨S128x256, .f32⟩
  | .local _ .vmem, ⟨6, _⟩ => ⟨S1x256, .f32⟩
  | .local _ .vmem, ⟨7, _⟩ => ⟨S4000x256, .f32⟩
  | .local _ .vmem, ⟨8, _⟩ => ⟨S4000x256, .f32⟩
  | .local _ .vmem, ⟨9, _⟩ => ⟨S4000x256, .f32⟩
  | .local _ .vmem, ⟨10, _⟩ => ⟨S4000x256, .f32⟩
  | .local _ .vmem, ⟨11, _⟩ => ⟨S4000x256, .f32⟩
  | .local _ .vmem, ⟨12, _⟩ => ⟨S4000x256, .f32⟩
  | .local _ .vmem, ⟨13, _⟩ => ⟨S256x128, .f32⟩
  | .local _ .vmem, ⟨14, _⟩ => ⟨S256x128, .f32⟩
  | .local _ .vmem, ⟨15, _⟩ => ⟨S1x128, .f32⟩
  | .local _ .vmem, ⟨16, _⟩ => ⟨S4000x128, .f32⟩
  | .local _ .vmem, ⟨17, _⟩ => ⟨S4000x128, .f32⟩
  | _, _ => ⟨S40000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_4 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_7 : Ref sig .tc := ⟨.hbm, 52, rfl⟩
abbrev main_v35 : Ref sig .tc := ⟨.hbm, 53, rfl⟩
abbrev main_cst_8 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_9 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S40000x128 : S_.BroadcastsInDim S40000x128 (![] : Fin 0 → Fin S40000x128.rank)
  bcast_S_S40000 : S_.BroadcastsInDim S40000 (![] : Fin 0 → Fin S40000.rank)
  bcast_S40000_S40000x1_0 : S40000.BroadcastsInDim S40000x1 (![0] : Fin 1 → Fin S40000x1.rank)
  bcast_S40000x1_S40000x128_0_1 : S40000x1.BroadcastsInDim S40000x128 (![0, 1] : Fin 2 → Fin S40000x128.rank)
  shapeCasts_S256_S1x256 : S256.ShapeCasts S1x256
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4000x256 : S1x256.Broadcasts S4000x256
  inb_S4000x256_S4000x256_0_0 : ∀ a, (![0, 0] : Fin 2 → Nat) a + S4000x256.size a ≤ S4000x256.size a
  h_S4000x256 : 0 < S4000x256.numel
  bcast_S_S40000x256 : S_.BroadcastsInDim S40000x256 (![] : Fin 0 → Fin S40000x256.rank)
  bcast_S40000x1_S40000x256_0_1 : S40000x1.BroadcastsInDim S40000x256 (![0, 1] : Fin 2 → Fin S40000x256.rank)
  shapeCasts_S128_S1x128 : S128.ShapeCasts S1x128
  shapeCasts_S4000x256_S4000x256 : S4000x256.ShapeCasts S4000x256
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  scatter_S40000_S640000x1_S640000_n_0_0_1_wf : ScatterDims.WF S40000 S640000x1 S640000 [] [0] [0] 1
  dot_S4000x128_S128x256_S4000x256_1_0_0_1_n_n_wf : DotDims.WF S4000x128 S128x256 S4000x256 [1] [0] [0] [1] [] []
  gather_S40000x256_S640000x1_S640000x256_1_0_n_n_0_1_1256_wf : GatherDims.WF S40000x256 S640000x1 S640000x256 [1] [0] [] [0] [] 1 ![1, 256]
  scatter_S40000x256_S640000x1_S640000x256_1_0_0_1_wf : ScatterDims.WF S40000x256 S640000x1 S640000x256 [1] [0] [0] 1
  dot_S4000x256_S256x128_S4000x128_1_0_0_1_n_n_wf : DotDims.WF S4000x256 S256x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S40000x128.size a
  hwx0_0 : ∀ i : grid0.Coords, EltTy.bits .f32 = 32 ∨ (Rect.block (s := S40000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S40000x128.size a
  hwx0_1 : ∀ i : grid0.Coords, EltTy.bits .f32 = 32 ∨ (Rect.block (s := S40000x128) S4000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x256.size a ≤ S40000x256.size a
  hwx0_5 : ∀ i : grid0.Coords, EltTy.bits .f32 = 32 ∨ (Rect.block (s := S40000x256) S4000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x256.size a ≤ S40000x256.size a
  hwx1_0 : ∀ i : grid1.Coords, EltTy.bits .f32 = 32 ∨ (Rect.block (s := S40000x256) S4000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x256.size a ≤ S40000x256.size a
  hwx1_1 : ∀ i : grid1.Coords, EltTy.bits .f32 = 32 ∨ (Rect.block (s := S40000x256) S4000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x128.size a ≤ S256x128.size a
  hwx1_2 : ∀ i : grid1.Coords, EltTy.bits .f32 = 32 ∨ (Rect.block (s := S256x128) S256x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S256x128.size a
  hwx1_3 : ∀ i : grid1.Coords, EltTy.bits .f32 = 32 ∨ (Rect.block (s := S256x128) S256x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x128.size a ≤ S40000x128.size a
  hwx1_5 : ∀ i : grid1.Coords, EltTy.bits .f32 = 32 ∨ (Rect.block (s := S40000x128) S4000x128.size (cc1_transform_5 i) (hinb1_5 i)).WholeWords (EltTy.packing .f32)

variable [Facts₀]

def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def scatter_S40000_S640000x1_S640000_n_0_0_1 : ScatterDims S40000 S640000x1 S640000 where
  updateWindowDims := []
  insertedWindowDims := [0]
  scatterDimsToOperandDims := [0]
  indexVectorDim := 1
  wf := scatter_S40000_S640000x1_S640000_n_0_0_1_wf
def dot_S4000x128_S128x256_S4000x256_1_0_0_1_n_n : DotDims S4000x128 S128x256 S4000x256 where
  lhsContracting := [1]
  rhsContracting := [0]
  lhsNonContracting := [0]
  rhsNonContracting := [1]
  lhsBatch := []
  rhsBatch := []
  wf := dot_S4000x128_S128x256_S4000x256_1_0_0_1_n_n_wf
def gather_S40000x256_S640000x1_S640000x256_1_0_n_n_0_1_1256 : GatherDims S40000x256 S640000x1 S640000x256 where
  offsetDims := [1]
  collapsedSliceDims := [0]
  operandBatchingDims := []
  startIndicesBatchingDims := []
  startIndexMap := [0]
  indexVectorDim := 1
  sliceSizes := ![1, 256]
  wf := gather_S40000x256_S640000x1_S640000x256_1_0_n_n_0_1_1256_wf
def scatter_S40000x256_S640000x1_S640000x256_1_0_0_1 : ScatterDims S40000x256 S640000x1 S640000x256 where
  updateWindowDims := [1]
  insertedWindowDims := [0]
  scatterDimsToOperandDims := [0]
  indexVectorDim := 1
  wf := scatter_S40000x256_S640000x1_S640000x256_1_0_0_1_wf
def dot_S4000x256_S256x128_S4000x128_1_0_0_1_n_n : DotDims S4000x256 S256x128 S4000x128 where
  lhsContracting := [1]
  rhsContracting := [0]
  lhsNonContracting := [0]
  rhsNonContracting := [1]
  lhsBatch := []
  rhsBatch := []
  wf := dot_S4000x256_S256x128_S4000x128_1_0_0_1_n_n_wf

abbrev win0_0 : Pipeline.Window sig grid0 :=
  Pipeline.Window.ofSpec (Memref.whole main_v22) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S4000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v43) S4000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S4000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S256x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S256x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S4000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S40000x128 : Shape := ⟨2, ![40000, 128]⟩
abbrev S2x640000 : Shape := ⟨2, ![2, 640000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S40000 : Shape := ⟨1, ![40000]⟩
abbrev S40000x1 : Shape := ⟨2, ![40000, 1]⟩
abbrev S40000x256 : Shape := ⟨2, ![40000, 256]⟩
abbrev S1x256 : Shape := ⟨2, ![1, 256]⟩
abbrev S640000x256 : Shape := ⟨2, ![640000, 256]⟩
abbrev S1x128 : Shape := ⟨2, ![1, 128]⟩

abbrev nBuf : Space → Nat
  | .hbm => 81
  | .vmem => 0
  | .smem => 0
  | _ => 0

abbrev bufTy : (tb : Table) → Fin (tcTables nBuf tb) → BufTy
  | .hbm, ⟨0, _⟩ => ⟨S40000x128, .f32⟩
  | .hbm, ⟨1, _⟩ => ⟨S2x640000, .i32⟩
  | .hbm, ⟨2, _⟩ => ⟨S128x256, .f32⟩
  | .hbm, ⟨3, _⟩ => ⟨S128x256, .f32⟩
  | .hbm, ⟨4, _⟩ => ⟨S256, .f32⟩
  | .hbm, ⟨5, _⟩ => ⟨S256x128, .f32⟩
  | .hbm, ⟨6, _⟩ => ⟨S256x128, .f32⟩
  | .hbm, ⟨7, _⟩ => ⟨S128, .f32⟩
  | .hbm, ⟨8, _⟩ => ⟨S1x640000, .i32⟩
  | .hbm, ⟨9, _⟩ => ⟨S640000, .i32⟩
  | .hbm, ⟨10, _⟩ => ⟨S1x640000, .i32⟩
  | .hbm, ⟨11, _⟩ => ⟨S640000, .i32⟩
  | .hbm, ⟨12, _⟩ => ⟨S_, .i32⟩
  | .hbm, ⟨13, _⟩ => ⟨S640000, .i32⟩
  | .hbm, ⟨14, _⟩ => ⟨S640000, .i1⟩
  | .hbm, ⟨15, _⟩ => ⟨S_, .i32⟩
  | .hbm, ⟨16, _⟩ => ⟨S640000, .i32⟩
  | .hbm, ⟨17, _⟩ => ⟨S640000, .i32⟩
  | .hbm, ⟨18, _⟩ => ⟨S640000, .i32⟩
  | .hbm, ⟨19, _⟩ => ⟨S640000x1, .i32⟩
  | .hbm, ⟨20, _⟩ => ⟨S640000x128, .f32⟩
  | .hbm, ⟨21, _⟩ => ⟨S_, .f32⟩
  | .hbm, ⟨22, _⟩ => ⟨S40000x128, .f32⟩
  | .hbm, ⟨23, _⟩ => ⟨S640000x1, .i32⟩
  | .hbm, ⟨24, _⟩ => ⟨S40000x128, .f32⟩
  | .hbm, ⟨25, _⟩ => ⟨S_, .f32⟩
  | .hbm, ⟨26, _⟩ => ⟨S640000, .f32⟩
  | .hbm, ⟨27, _⟩ => ⟨S_, .f32⟩
  | .hbm, ⟨28, _⟩ => ⟨S40000, .f32⟩
  | .hbm, ⟨29, _⟩ => ⟨S640000x1, .i32⟩
  | .hbm, ⟨30, _⟩ => ⟨S40000, .f32⟩
  | .hbm, ⟨31, _⟩ => ⟨S_, .f32⟩
  | .hbm, ⟨32, _⟩ => ⟨S40000, .f32⟩
  | .hbm, ⟨33, _⟩ => ⟨S40000, .f32⟩
  | .hbm, ⟨34, _⟩ => ⟨S40000x1, .f32⟩
  | .hbm, ⟨35, _⟩ => ⟨S40000x128, .f32⟩
  | .hbm, ⟨36, _⟩ => ⟨S40000x128, .f32⟩
  | .hbm, ⟨37, _⟩ => ⟨S40000x256, .f32⟩
  | .hbm, ⟨38, _⟩ => ⟨S1x256, .f32⟩
  | .hbm, ⟨39, _⟩ => ⟨S40000x256, .f32⟩
  | .hbm, ⟨40, _⟩ => ⟨S40000x256, .f32⟩
  | .hbm, ⟨41, _⟩ => ⟨S40000x256, .f32⟩
  | .hbm, ⟨42, _⟩ => ⟨S40000x256, .f32⟩
  | .hbm, ⟨43, _⟩ => ⟨S_, .f32⟩
  | .hbm, ⟨44, _⟩ => ⟨S40000x256, .f32⟩
  | .hbm, ⟨45, _⟩ => ⟨S40000x256, .f32⟩
  | .hbm, ⟨46, _⟩ => ⟨S1x640000, .i32⟩
  | .hbm, ⟨47, _⟩ => ⟨S640000, .i32⟩
  | .hbm, ⟨48, _⟩ => ⟨S1x640000, .i32⟩
  | .hbm, ⟨49, _⟩ => ⟨S640000, .i32⟩
  | .hbm, ⟨50, _⟩ => ⟨S_, .i32⟩
  | .hbm, ⟨51, _⟩ => ⟨S640000, .i32⟩
  | .hbm, ⟨52, _⟩ => ⟨S640000, .i1⟩
  | .hbm, ⟨53, _⟩ => ⟨S_, .i32⟩
  | .hbm, ⟨54, _⟩ => ⟨S640000, .i32⟩
  | .hbm, ⟨55, _⟩ => ⟨S640000, .i32⟩
  | .hbm, ⟨56, _⟩ => ⟨S640000, .i32⟩
  | .hbm, ⟨57, _⟩ => ⟨S640000x1, .i32⟩
  | .hbm, ⟨58, _⟩ => ⟨S640000x256, .f32⟩
  | .hbm, ⟨59, _⟩ => ⟨S_, .f32⟩
  | .hbm, ⟨60, _⟩ => ⟨S40000x256, .f32⟩
  | .hbm, ⟨61, _⟩ => ⟨S640000x1, .i32⟩
  | .hbm, ⟨62, _⟩ => ⟨S40000x256, .f32⟩
  | .hbm, ⟨63, _⟩ => ⟨S_, .f32⟩
  | .hbm, ⟨64, _⟩ => ⟨S640000, .f32⟩
  | .hbm, ⟨65, _⟩ => ⟨S_, .f32⟩
  | .hbm, ⟨66, _⟩ => ⟨S40000, .f32⟩
  | .hbm, ⟨67, _⟩ => ⟨S640000x1, .i32⟩
  | .hbm, ⟨68, _⟩ => ⟨S40000, .f32⟩
  | .hbm, ⟨69, _⟩ => ⟨S_, .f32⟩
  | .hbm, ⟨70, _⟩ => ⟨S40000, .f32⟩
  | .hbm, ⟨71, _⟩ => ⟨S40000, .f32⟩
  | .hbm, ⟨72, _⟩ => ⟨S40000x1, .f32⟩
  | .hbm, ⟨73, _⟩ => ⟨S40000x256, .f32⟩
  | .hbm, ⟨74, _⟩ => ⟨S40000x256, .f32⟩
  | .hbm, ⟨75, _⟩ => ⟨S40000x128, .f32⟩
  | .hbm, ⟨76, _⟩ => ⟨S1x128, .f32⟩
  | .hbm, ⟨77, _⟩ => ⟨S40000x128, .f32⟩
  | .hbm, ⟨78, _⟩ => ⟨S40000x128, .f32⟩
  | .hbm, ⟨79, _⟩ => ⟨S40000x128, .f32⟩
  | .hbm, ⟨80, _⟩ => ⟨S40000x128, .f32⟩
  | _, _ => ⟨S40000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_c_4 : Ref sig .tc := ⟨.hbm, 50, rfl⟩
abbrev main_v34 : Ref sig .tc := ⟨.hbm, 51, rfl⟩
abbrev main_v35 : Ref sig .tc := ⟨.hbm, 52, rfl⟩
abbrev main_c_5 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_6 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_7 : Ref sig .tc := ⟨.hbm, 63, rfl⟩
abbrev main_v44 : Ref sig .tc := ⟨.hbm, 64, rfl⟩
abbrev main_cst_8 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_9 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S40000x128 : S_.BroadcastsInDim S40000x128 (![] : Fin 0 → Fin S40000x128.rank)
  bcast_S_S40000 : S_.BroadcastsInDim S40000 (![] : Fin 0 → Fin S40000.rank)
  bcast_S40000_S40000x1_0 : S40000.BroadcastsInDim S40000x1 (![0] : Fin 1 → Fin S40000x1.rank)
  bcast_S40000x1_S40000x128_0_1 : S40000x1.BroadcastsInDim S40000x128 (![0, 1] : Fin 2 → Fin S40000x128.rank)
  bcast_S256_S1x256_1 : S256.BroadcastsInDim S1x256 (![1] : Fin 1 → Fin S1x256.rank)
  bcast_S1x256_S40000x256_0_1 : S1x256.BroadcastsInDim S40000x256 (![0, 1] : Fin 2 → Fin S40000x256.rank)
  bcast_S_S40000x256 : S_.BroadcastsInDim S40000x256 (![] : Fin 0 → Fin S40000x256.rank)
  bcast_S40000x1_S40000x256_0_1 : S40000x1.BroadcastsInDim S40000x256 (![0, 1] : Fin 2 → Fin S40000x256.rank)
  bcast_S128_S1x128_1 : S128.BroadcastsInDim S1x128 (![1] : Fin 1 → Fin S1x128.rank)
  bcast_S1x128_S40000x128_0_1 : S1x128.BroadcastsInDim S40000x128 (![0, 1] : Fin 2 → Fin S40000x128.rank)
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  scatter_S40000_S640000x1_S640000_n_0_0_1_wf : ScatterDims.WF S40000 S640000x1 S640000 [] [0] [0] 1
  dot_S40000x128_S128x256_S40000x256_1_0_0_1_n_n_wf : DotDims.WF S40000x128 S128x256 S40000x256 [1] [0] [0] [1] [] []
  gather_S40000x256_S640000x1_S640000x256_1_0_n_n_0_1_1256_wf : GatherDims.WF S40000x256 S640000x1 S640000x256 [1] [0] [] [0] [] 1 ![1, 256]
  scatter_S40000x256_S640000x1_S640000x256_1_0_0_1_wf : ScatterDims.WF S40000x256 S640000x1 S640000x256 [1] [0] [0] 1
  dot_S40000x256_S256x128_S40000x128_1_0_0_1_n_n_wf : DotDims.WF S40000x256 S256x128 S40000x128 [1] [0] [0] [1] [] []

variable [Facts₀]

def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def scatter_S40000_S640000x1_S640000_n_0_0_1 : ScatterDims S40000 S640000x1 S640000 where
  updateWindowDims := []
  insertedWindowDims := [0]
  scatterDimsToOperandDims := [0]
  indexVectorDim := 1
  wf := scatter_S40000_S640000x1_S640000_n_0_0_1_wf
def dot_S40000x128_S128x256_S40000x256_1_0_0_1_n_n : DotDims S40000x128 S128x256 S40000x256 where
  lhsContracting := [1]
  rhsContracting := [0]
  lhsNonContracting := [0]
  rhsNonContracting := [1]
  lhsBatch := []
  rhsBatch := []
  wf := dot_S40000x128_S128x256_S40000x256_1_0_0_1_n_n_wf
def gather_S40000x256_S640000x1_S640000x256_1_0_n_n_0_1_1256 : GatherDims S40000x256 S640000x1 S640000x256 where
  offsetDims := [1]
  collapsedSliceDims := [0]
  operandBatchingDims := []
  startIndicesBatchingDims := []
  startIndexMap := [0]
  indexVectorDim := 1
  sliceSizes := ![1, 256]
  wf := gather_S40000x256_S640000x1_S640000x256_1_0_n_n_0_1_1256_wf
def scatter_S40000x256_S640000x1_S640000x256_1_0_0_1 : ScatterDims S40000x256 S640000x1 S640000x256 where
  updateWindowDims := [1]
  insertedWindowDims := [0]
  scatterDimsToOperandDims := [0]
  indexVectorDim := 1
  wf := scatter_S40000x256_S640000x1_S640000x256_1_0_0_1_wf
def dot_S40000x256_S256x128_S40000x128_1_0_0_1_n_n : DotDims S40000x256 S256x128 S40000x128 where
  lhsContracting := [1]
  rhsContracting := [0]
  lhsNonContracting := [0]
  rhsNonContracting := [1]
  lhsBatch := []
  rhsBatch := []
  wf := dot_S40000x256_S256x128_S40000x128_1_0_0_1_n_n_wf

class Facts : Prop extends Facts₀ where

variable [Facts]
-- ==== Proof.KRun.lean ====
/-
  The idealized kernel program's run with its result named. The program is four stretches: the host operations that
  build the first neighbourhood means, the first layer's kernel over ten bands of rows, the host operations that build
  the second means from the first layer's result, and the second layer's kernel. Every weakly fair execution ends, without
  a fault, with the arguments as launched and the result buffer at what the last stretch leaves there, `W4` at the
  result's reference: the contents folded through the four stretches from the launch memory.
-/
import proofs.«110139_j2087354105996_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the segments launched from the memory `m`, the last thread state read against the final state; the result
    buffer is among the unscoped buffers that state holds at the last boundary's contents. -/
theorem run_named : θ_run defs (onTc (τ := τ) (main (F := F))) ⟨m, fun _ => 0, ρ⟩ (fun r => ∀ c : Dev nD,
      r.2.mem ((c.tc : Thread nD τ).loc main_v45) = W4 m ρ c (Proc.devRef .tc main_v45)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v45 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.Run

end
-- ==== Proof.LibMatmul.lean ====
/-
  A rank-2 matrix product read at an index, at the exact extended reals: when the dimension numbers contract the
  left operand's column axis with the right operand's row axis and keep the other two axes in order, the product
  accumulated into zeros is, at row `p` and column `q`, the sum over `k` of `lhs (p, k) · rhs (k, q)` — a sum over
  the contracted extent itself, not over the contraction's own index type.
-/
import Idealize.ShloMosaic.PureOps.Ideal.Laws
import Idealize.ShloMosaic.Lib.ValueIdx

noncomputable section

namespace Cert.LibMatmul

open Idealize.ShloMosaic Idealize.ShloMosaic.ValueIdx

/-- A product `[a, K] × [K, b] → [a, b]` into a zero accumulator, at an output index `j`: the four coordinate facts
    say which operand entries the dimension numbers pair at the contraction index (the left one at `(j 0, k)`, the
    right one at `(k, j 1)`); the contraction has one axis, of extent `K`, and the sum is re-indexed along it. -/
theorem matmul_zero_ix2 {a K b : Nat} {φ₁ φ₂ : FTy}
    (d : DotDims ⟨2, ![a, K]⟩ ⟨2, ![K, b]⟩ ⟨2, ![a, b]⟩) (prec : Option ContractPrecision)
    (hr : d.contr.rank = 1) (hs : d.contr.size ⟨0, by omega⟩ = K)
    (hl0 : ∀ j q, (d.lhsIdx j q 0).val = (j 0).val)
    (hl1 : ∀ j q, (d.lhsIdx j q 1).val = (q ⟨0, by omega⟩).val)
    (hr0 : ∀ j q, (d.rhsIdx j q 0).val = (q ⟨0, by omega⟩).val)
    (hr1 : ∀ j q, (d.rhsIdx j q 1).val = (j 1).val)
    (lhs : FVec Ideal ⟨2, ![a, K]⟩ φ₁) (rhs : FVec Ideal ⟨2, ![K, b]⟩ φ₂) (j : (⟨2, ![a, b]⟩ : Shape).Idx) :
    FloatOps.matmul d prec lhs rhs (constant ⟨2, ![a, b]⟩ .f32 0x00000000#32) j
      = ∑ k : Fin K, lhs (ix2 (j 0) k) * rhs (ix2 k (j 1)) := by
  rw [Ideal.matmul_constant_zero_apply, ← Equiv.sum_comp (contrEquiv1 d K hr hs).symm]
  refine Finset.sum_congr rfl fun k _ => ?_
  have hk := contrEquiv1_symm_val d K hr hs k
  have el : d.lhsIdx j ((contrEquiv1 d K hr hs).symm k) = ix2 (j 0) k := funext fun x => Fin.ext (by
    match x with
    | ⟨0, _⟩ => exact hl0 _ _
    | ⟨1, _⟩ => exact (hl1 _ _).trans hk)
  have er : d.rhsIdx j ((contrEquiv1 d K hr hs).symm k) = ix2 k (j 1) := funext fun x => Fin.ext (by
    match x with
    | ⟨0, _⟩ => exact (hr0 _ _).trans hk
    | ⟨1, _⟩ => exact hr1 _ _)
  rw [el, er]
  rfl

end Cert.LibMatmul

end
-- ==== Proof.LibMatProd.lean ====
/-
  The product of two matrices over the extended reals, entry by entry: entry (p, q) of A·B is the sum over k of
  A (p, k) · B (k, q). A band of consecutive rows of A·B is the product of that band of rows of A with the whole of B:
  each entry's sum runs over the same pairs of entries, so the two sums are equal term by term — no law of the
  extended reals is used, and nothing has to be finite.
-/
import Idealize.ShloMosaic.PureOps.Ideal.Laws
import Idealize.ShloMosaic.Lib.ValueIdx

noncomputable section

namespace Cert.LibMatProd

open Idealize.ShloMosaic Idealize.ShloMosaic.ValueIdx

/-- The matrix product `[a, K] × [K, b] → [a, b]` on the extended reals. -/
def mm {a K b : Nat} (A : (⟨2, ![a, K]⟩ : Shape).Idx → EReal) (B : (⟨2, ![K, b]⟩ : Shape).Idx → EReal) :
    (⟨2, ![a, b]⟩ : Shape).Idx → EReal :=
  fun j => ∑ k : Fin K, A (ix2 (j 0) k) * B (ix2 k (j 1))

theorem mm_apply {a K b : Nat} (A : (⟨2, ![a, K]⟩ : Shape).Idx → EReal) (B : (⟨2, ![K, b]⟩ : Shape).Idx → EReal)
    (j : (⟨2, ![a, b]⟩ : Shape).Idx) : mm A B j = ∑ k : Fin K, A (ix2 (j 0) k) * B (ix2 k (j 1)) := rfl

/-- An entry of a product of a band of rows equals the entry of the whole product it sits at: if row `y 0` of `X`
    is row `i 0` of `A`, and column `y 1` of `Y` is column `i 1` of `B`, the two sums have equal terms. -/
theorem mm_entry_congr {h n K b b' : Nat} (X : (⟨2, ![h, K]⟩ : Shape).Idx → EReal) (Y : (⟨2, ![K, b]⟩ : Shape).Idx → EReal)
    (A : (⟨2, ![n, K]⟩ : Shape).Idx → EReal) (B : (⟨2, ![K, b']⟩ : Shape).Idx → EReal)
    (y : (⟨2, ![h, b]⟩ : Shape).Idx) (i : (⟨2, ![n, b']⟩ : Shape).Idx)
    (hX : ∀ k : Fin K, X (ix2 (y 0) k) = A (ix2 (i 0) k))
    (hY : ∀ k : Fin K, Y (ix2 k (y 1)) = B (ix2 k (i 1))) :
    mm X Y y = mm A B i := by
  rw [mm_apply, mm_apply]
  exact Finset.sum_congr rfl fun k _ => by rw [hX k, hY k]

end Cert.LibMatProd

end
-- ==== Proof.Spec.lean ====
/-
  One mean-aggregation graph layer, entry by entry, on the extended reals.
  For a node-feature matrix X [n, K], the matrix M [n, K] of neighbourhood means, two weight matrices Wl, Wr [K, b]
  and a bias row [1, b], the layer's entry (p, q) is
      (∑ₖ M(p,k)·Wl(k,q) + ∑ₖ X(p,k)·Wr(k,q)) + bias(0,q),
  and the activated layer is its maximum with zero. Adding the bias before or after the second product gives
  the same entry: addition on the extended reals is commutative and associative, so nothing has to be finite.
-/
import Idealize.ShloMosaic.PureOps.Ideal.Laws
import Idealize.ShloMosaic.Lib.ValueIdx
import proofs.«110139_j2087354105996_1_alg».proof.Proof.LibMatProd

noncomputable section

namespace Cert.Sage

open Idealize.ShloMosaic Idealize.ShloMosaic.ValueIdx Cert.LibMatProd

/-- Entry `i` of the layer before its activation: both matrix products added, then the bias of the column. -/
def lin {n K b : Nat} (M X : (⟨2, ![n, K]⟩ : Shape).Idx → EReal) (Wl Wr : (⟨2, ![K, b]⟩ : Shape).Idx → EReal)
    (row : (⟨2, ![1, b]⟩ : Shape).Idx → EReal) : (⟨2, ![n, b]⟩ : Shape).Idx → EReal :=
  fun i => (mm M Wl i + mm X Wr i) + row (ix2 (0 : Fin 1) (i 1))

/-- The activated layer: the maximum of each entry with the zero word's value. -/
def linRelu {n K b : Nat} (M X : (⟨2, ![n, K]⟩ : Shape).Idx → EReal) (Wl Wr : (⟨2, ![K, b]⟩ : Shape).Idx → EReal)
    (row : (⟨2, ![1, b]⟩ : Shape).Idx → EReal) : (⟨2, ![n, b]⟩ : Shape).Idx → EReal :=
  fun i => max (lin M X Wl Wr row i) (Ideal.ofBits .f32 0x00000000#32)

/-- The bias added between the two products instead of after them: the same entry. -/
theorem lin_bias_first {n K b : Nat} (M X : (⟨2, ![n, K]⟩ : Shape).Idx → EReal) (Wl Wr : (⟨2, ![K, b]⟩ : Shape).Idx → EReal)
    (row : (⟨2, ![1, b]⟩ : Shape).Idx → EReal) (i : (⟨2, ![n, b]⟩ : Shape).Idx) :
    (mm M Wl i + row (ix2 (0 : Fin 1) (i 1))) + mm X Wr i = lin M X Wl Wr row i :=
  add_right_comm _ _ _

end Cert.Sage

end
-- ==== Proof.KPay.lean ====
/-
  What one grid step of each layer's kernel stores, read at an entry, on the extended reals.
  The step loads a band of 4000 rows of the mean matrix and of the feature matrix, both weight matrices and the
  bias row; rounding to bf16 is the identity on the extended reals, a product accumulated into zeros is the plain
  sum over the contracted axis, and the bias row is repeated down the rows. So entry (p, q) of what is stored is
  the layer's entry (p, q) computed from the band: with the activation in the first layer, without it in the second.
-/
import proofs.«110139_j2087354105996_1_alg».proof.Proof.Gen.KernelIdeal.Skeleton
import Idealize.ShloMosaic.Lib.ValueLayout
import proofs.«110139_j2087354105996_1_alg».proof.Proof.LibMatmul
import proofs.«110139_j2087354105996_1_alg».proof.Proof.Spec

noncomputable section

namespace Cert.KernelIdeal.Pay

open Cert.KernelIdeal Cert.KernelIdeal.Gen Idealize.ShloMosaic Idealize.ShloMosaic.ValueIdx

/-! ## The first layer's product: [4000,128] × [128,256] -/

theorem l0_0 (j : S4000x256.Idx) (q : dot_S4000x128_S128x256_S4000x256_1_0_0_1_n_n.contr.Idx) :
    (dot_S4000x128_S128x256_S4000x256_1_0_0_1_n_n.lhsIdx j q 0).val = (j 0).val := by
  unfold DotDims.lhsIdx
  rw [dif_neg (show ¬(0 : Fin S4000x128.rank) ∈ dot_S4000x128_S128x256_S4000x256_1_0_0_1_n_n.lhsBatch by decide), dif_pos (show (0 : Fin S4000x128.rank) ∈ dot_S4000x128_S128x256_S4000x256_1_0_0_1_n_n.lhsNonContracting by decide)]
  rfl
theorem l0_1 (j : S4000x256.Idx) (q : dot_S4000x128_S128x256_S4000x256_1_0_0_1_n_n.contr.Idx) :
    (dot_S4000x128_S128x256_S4000x256_1_0_0_1_n_n.lhsIdx j q 1).val = (q ⟨0, by decide⟩).val :=
  dot_S4000x128_S128x256_S4000x256_1_0_0_1_n_n.lhsIdx_val_of_single rfl j q
theorem r0_0 (j : S4000x256.Idx) (q : dot_S4000x128_S128x256_S4000x256_1_0_0_1_n_n.contr.Idx) :
    (dot_S4000x128_S128x256_S4000x256_1_0_0_1_n_n.rhsIdx j q 0).val = (q ⟨0, by decide⟩).val :=
  dot_S4000x128_S128x256_S4000x256_1_0_0_1_n_n.rhsIdx_val_of_single rfl j q
theorem r0_1 (j : S4000x256.Idx) (q : dot_S4000x128_S128x256_S4000x256_1_0_0_1_n_n.contr.Idx) :
    (dot_S4000x128_S128x256_S4000x256_1_0_0_1_n_n.rhsIdx j q 1).val = (j 1).val := by
  unfold DotDims.rhsIdx
  rw [dif_neg (show ¬(1 : Fin S128x256.rank) ∈ dot_S4000x128_S128x256_S4000x256_1_0_0_1_n_n.rhsBatch by decide), dif_pos (show (1 : Fin S128x256.rank) ∈ dot_S4000x128_S128x256_S4000x256_1_0_0_1_n_n.rhsNonContracting by decide)]
  rfl

/-- The first layer's product into zeros at (p, q): the sum over the 128 contracted columns. -/
theorem matmul0_apply {φ₁ φ₂ : FTy} (l : FVec Ideal S4000x128 φ₁) (r : FVec Ideal S128x256 φ₂) (p : Fin 4000) (q : Fin 256) :
    matmul dot_S4000x128_S128x256_S4000x256_1_0_0_1_n_n none l r (constant S4000x256 .f32 0x00000000#32) (ix2 p q)
      = ∑ k : Fin 128, l (ix2 p k) * r (ix2 k q) :=
  Cert.LibMatmul.matmul_zero_ix2 dot_S4000x128_S128x256_S4000x256_1_0_0_1_n_n none rfl rfl l0_0 l0_1 r0_0 r0_1 l r (ix2 p q)

/-! ## The second layer's product: [4000,256] × [256,128] -/

theorem l1_0 (j : S4000x128.Idx) (q : dot_S4000x256_S256x128_S4000x128_1_0_0_1_n_n.contr.Idx) :
    (dot_S4000x256_S256x128_S4000x128_1_0_0_1_n_n.lhsIdx j q 0).val = (j 0).val := by
  unfold DotDims.lhsIdx
  rw [dif_neg (show ¬(0 : Fin S4000x256.rank) ∈ dot_S4000x256_S256x128_S4000x128_1_0_0_1_n_n.lhsBatch by decide), dif_pos (show (0 : Fin S4000x256.rank) ∈ dot_S4000x256_S256x128_S4000x128_1_0_0_1_n_n.lhsNonContracting by decide)]
  rfl
theorem l1_1 (j : S4000x128.Idx) (q : dot_S4000x256_S256x128_S4000x128_1_0_0_1_n_n.contr.Idx) :
    (dot_S4000x256_S256x128_S4000x128_1_0_0_1_n_n.lhsIdx j q 1).val = (q ⟨0, by decide⟩).val :=
  dot_S4000x256_S256x128_S4000x128_1_0_0_1_n_n.lhsIdx_val_of_single rfl j q
theorem r1_0 (j : S4000x128.Idx) (q : dot_S4000x256_S256x128_S4000x128_1_0_0_1_n_n.contr.Idx) :
    (dot_S4000x256_S256x128_S4000x128_1_0_0_1_n_n.rhsIdx j q 0).val = (q ⟨0, by decide⟩).val :=
  dot_S4000x256_S256x128_S4000x128_1_0_0_1_n_n.rhsIdx_val_of_single rfl j q
theorem r1_1 (j : S4000x128.Idx) (q : dot_S4000x256_S256x128_S4000x128_1_0_0_1_n_n.contr.Idx) :
    (dot_S4000x256_S256x128_S4000x128_1_0_0_1_n_n.rhsIdx j q 1).val = (j 1).val := by
  unfold DotDims.rhsIdx
  rw [dif_neg (show ¬(1 : Fin S256x128.rank) ∈ dot_S4000x256_S256x128_S4000x128_1_0_0_1_n_n.rhsBatch by decide), dif_pos (show (1 : Fin S256x128.rank) ∈ dot_S4000x256_S256x128_S4000x128_1_0_0_1_n_n.rhsNonContracting by decide)]
  rfl

/-- The second layer's product into zeros at (p, q): the sum over the 256 contracted columns. -/
theorem matmul1_apply {φ₁ φ₂ : FTy} (l : FVec Ideal S4000x256 φ₁) (r : FVec Ideal S256x128 φ₂) (p : Fin 4000) (q : Fin 128) :
    matmul dot_S4000x256_S256x128_S4000x128_1_0_0_1_n_n none l r (constant S4000x128 .f32 0x00000000#32) (ix2 p q)
      = ∑ k : Fin 256, l (ix2 p k) * r (ix2 k q) :=
  Cert.LibMatmul.matmul_zero_ix2 dot_S4000x256_S256x128_S4000x128_1_0_0_1_n_n none rfl rfl l1_0 l1_1 r1_0 r1_1 l r (ix2 p q)

/-! ## What each step stores, at an entry -/

/-- First layer: entry (p, q) of the stored block is the activated layer's entry of the loaded bands. -/
theorem pay0_apply (x0 x1 : Vec Ideal S4000x128 .f32) (x2 x3 : Vec Ideal S128x256 .f32) (x4 : Vec Ideal S1x256 .f32)
    (p : Fin 4000) (q : Fin 256) :
    k0_pay1 (F := Ideal) x0 x1 x2 x3 x4 (ix2 p q) = Cert.Sage.linRelu x0 x1 x2 x3 x4 (ix2 p q) := by
  unfold k0_pay1
  simp only [maximumf_apply, addf_apply, broadcast_apply, matmul0_apply, broadcastTo_1b_ab_apply, shapeCast_self, truncf_apply]
  rfl

/-- Second layer: entry (p, q) of the stored block is the layer's entry of the loaded bands. -/
theorem pay1_apply (x0 x1 : Vec Ideal S4000x256 .f32) (x2 x3 : Vec Ideal S256x128 .f32) (x4 : Vec Ideal S1x128 .f32)
    (p : Fin 4000) (q : Fin 128) :
    k1_pay1 (F := Ideal) x0 x1 x2 x3 x4 (ix2 p q) = Cert.Sage.lin x0 x1 x2 x3 x4 (ix2 p q) := by
  unfold k1_pay1
  simp only [addf_apply, matmul1_apply, broadcastTo_1b_ab_apply, shapeCast_self, truncf_apply]
  rfl

end Cert.KernelIdeal.Pay

end
-- ==== Proof.KReg0.lean ====
/-
  The first layer's kernel region: what its result array holds when the region is left.
  The kernel runs over ten grid points; point t loads rows 4000·t … 4000·t + 3999 of the mean matrix and of the feature
  matrix, the whole of both weight matrices and of the bias row, and writes back rows 4000·t … 4000·t + 3999 of the
  result. An entry of a product of a band of rows with a whole matrix is the entry of the whole product at the band's
  place, so what point t writes back is its block of ONE function of the arrays the region is entered with —
  the activated layer's entry of the whole mean and feature matrices — and the ten blocks tile the result array, which therefore ends holding that function.
-/
import proofs.«110139_j2087354105996_1_alg».proof.Proof.Gen.KernelIdeal.Frame
import Idealize.ShloMosaic.Lib.Pipeline.Value
import proofs.«110139_j2087354105996_1_alg».proof.Proof.KPay

set_option maxRecDepth 16384

noncomputable section

namespace Cert.KernelIdeal.Reg0

open Cert.KernelIdeal Cert.KernelIdeal.Gen
open Idealize.ShloMosaic Idealize.ShloMosaic.TcCoe Idealize.SL.Sem Idealize.ShloMosaic.ValueIdx
open Idealize.ShloMosaic.Pipeline (Dat)
open Cert.LibMatProd

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the two row-banded inputs and the output are at block row t, the weights and
    the bias row at their one block. -/
theorem idx_facts : ∀ t : Fin cfg0.N,
    win0_0.index t (0 : Fin 2) = t.val ∧ win0_0.index t (1 : Fin 2) = 0
  ∧ win0_1.index t (0 : Fin 2) = t.val ∧ win0_1.index t (1 : Fin 2) = 0
  ∧ win0_2.index t (0 : Fin 2) = 0 ∧ win0_2.index t (1 : Fin 2) = 0
  ∧ win0_3.index t (0 : Fin 2) = 0 ∧ win0_3.index t (1 : Fin 2) = 0
  ∧ win0_4.index t (0 : Fin 2) = 0 ∧ win0_4.index t (1 : Fin 2) = 0
  ∧ win0_5.index t (0 : Fin 2) = t.val ∧ win0_5.index t (1 : Fin 2) = 0 :=
  (by decide +kernel : ∀ t : Fin grid0.N, _)

/-- The function the result array ends holding: the activated layer's entry of the whole mean and feature matrices. -/
def G (c : Dev nD) : Buf (Elt Ideal) ((c : Thread nD τ).loc main_v24) :=
  Cert.Sage.linRelu (n := 40000) (K := 128) (b := 256) (V c main_v22) (V c main_arg0) (V c main_arg2) (V c main_arg3) (V c main_v23)

/-- An entry of the layer computed from a band of rows is the entry of the layer computed from the whole matrices at the
    band's place: each product's sum runs over the same pairs of entries. -/
theorem band_entry (x0 x1 : Vec Ideal S4000x128 .f32) (x2 x3 : Vec Ideal S128x256 .f32) (x4 : Vec Ideal S1x256 .f32)
    (A0 A1 : S40000x128.Idx → EReal) (p : Fin 4000) (q : Fin 256) (P : Fin 40000)
    (h0 : ∀ k : Fin 128, x0 (ix2 p k) = A0 (ix2 P k)) (h1 : ∀ k : Fin 128, x1 (ix2 p k) = A1 (ix2 P k)) :
    k0_pay1 (F := Ideal) x0 x1 x2 x3 x4 (ix2 p q) = Cert.Sage.linRelu A0 A1 x2 x3 x4 (ix2 P q) := by
  rw [Pay.pay0_apply]
  unfold Cert.Sage.linRelu Cert.Sage.lin
  rw [mm_entry_congr x0 x2 A0 x2 (ix2 p q) (ix2 P q) h0 (fun _ => rfl),
    mm_entry_congr x1 x3 A1 x3 (ix2 p q) (ix2 P q) h1 (fun _ => rfl)]

/-- Row p of the mean matrix's block at point t is row 4000·t + p of the array. -/
theorem iblk_0_apply (c : Dev nD) (t : Fin cfg0.N) (p : Fin 4000) (k : Fin 128) (P : Fin 40000) (hP : P.val = t.val * 4000 + p.val) :
    (iblk0 V c 0 t : Vec Ideal S4000x128 .f32) (ix2 p k) = (V c main_v22 : S40000x128.Idx → EReal) (ix2 P k) := by
  obtain ⟨e0, e1, -⟩ := idx_facts t
  unfold iblk0
  rw [View.read_apply]
  show V c main_v22 _ = V c main_v22 _
  refine congrArg _ (funext fun a => Fin.ext ?_)
  match a with
  | ⟨0, _⟩ => show win0_0.index t (0 : Fin 2) * 4000 + 1 * p.val = P.val; rw [e0, hP]; omega
  | ⟨1, _⟩ => show win0_0.index t (1 : Fin 2) * 128 + 1 * k.val = k.val; rw [e1]; omega

/-- Row p of the feature matrix's block at point t is row 4000·t + p of the array. -/
theorem iblk_1_apply (c : Dev nD) (t : Fin cfg0.N) (p : Fin 4000) (k : Fin 128) (P : Fin 40000) (hP : P.val = t.val * 4000 + p.val) :
    (iblk0 V c 1 t : Vec Ideal S4000x128 .f32) (ix2 p k) = (V c main_arg0 : S40000x128.Idx → EReal) (ix2 P k) := by
  obtain ⟨-, -, e0, e1, -⟩ := idx_facts t
  unfold iblk0
  rw [View.read_apply]
  show V c main_arg0 _ = V c main_arg0 _
  refine congrArg _ (funext fun a => Fin.ext ?_)
  match a with
  | ⟨0, _⟩ => show win0_1.index t (0 : Fin 2) * 4000 + 1 * p.val = P.val; rw [e0, hP]; omega
  | ⟨1, _⟩ => show win0_1.index t (1 : Fin 2) * 128 + 1 * k.val = k.val; rw [e1]; omega

/-- The left weight matrix's one block is the array. -/
theorem iblk_2_eq (c : Dev nD) (t : Fin cfg0.N) :
    (iblk0 V c 2 t : Vec Ideal S128x256 .f32) = (V c main_arg2 : S128x256.Idx → EReal) := by
  obtain ⟨-, -, -, -, e0, e1, -⟩ := idx_facts t
  funext j
  unfold iblk0
  rw [View.read_apply]
  show V c main_arg2 _ = V c main_arg2 j
  refine congrArg _ (funext fun a => Fin.ext ?_)
  match a with
  | ⟨0, _⟩ => show win0_2.index t (0 : Fin 2) * 128 + 1 * (j 0).val = (j 0).val; rw [e0]; omega
  | ⟨1, _⟩ => show win0_2.index t (1 : Fin 2) * 256 + 1 * (j 1).val = (j 1).val; rw [e1]; omega

/-- The right weight matrix's one block is the array. -/
theorem iblk_3_eq (c : Dev nD) (t : Fin cfg0.N) :
    (iblk0 V c 3 t : Vec Ideal S128x256 .f32) = (V c main_arg3 : S128x256.Idx → EReal) := by
  obtain ⟨-, -, -, -, -, -, e0, e1, -⟩ := idx_facts t
  funext j
  unfold iblk0
  rw [View.read_apply]
  show V c main_arg3 _ = V c main_arg3 j
  refine congrArg _ (funext fun a => Fin.ext ?_)
  match a with
  | ⟨0, _⟩ => show win0_3.index t (0 : Fin 2) * 128 + 1 * (j 0).val = (j 0).val; rw [e0]; omega
  | ⟨1, _⟩ => show win0_3.index t (1 : Fin 2) * 256 + 1 * (j 1).val = (j 1).val; rw [e1]; omega

/-- The bias row's one block is the array. -/
theorem iblk_4_eq (c : Dev nD) (t : Fin cfg0.N) :
    (iblk0 V c 4 t : Vec Ideal S1x256 .f32) = (V c main_v23 : S1x256.Idx → EReal) := by
  obtain ⟨-, -, -, -, -, -, -, -, e0, e1, -⟩ := idx_facts t
  funext j
  unfold iblk0
  rw [View.read_apply]
  show V c main_v23 _ = V c main_v23 j
  refine congrArg _ (funext fun a => Fin.ext ?_)
  match a with
  | ⟨0, _⟩ => show win0_4.index t (0 : Fin 2) * 1 + 1 * (j 0).val = (j 0).val; rw [e0]; omega
  | ⟨1, _⟩ => show win0_4.index t (1 : Fin 2) * 256 + 1 * (j 1).val = (j 1).val; rw [e1]; omega

/-- What point t writes back is block t of `G`. -/
theorem flushed_eq (c : Dev nD) (t : Fin cfg0.N) :
    (dat0 V c).flushed 5 t = ((cfg0.win 5).blk t).view.read (Elt Ideal) (G V c) := by
  show (cfg0.win 5).cut (grid0.coords t) ((dat0 V c).after 5 t) = _
  rw [after0_5]
  unfold out0_5
  rw [View.canon_unit_zero hz]
  simp only [View.ld_unit_zero (S := S4000x128) hz, View.ld_unit_zero (S := S128x256) hz, View.ld_unit_zero (S := S1x256) hz]
  rw [iblk_2_eq V c t, iblk_3_eq V c t, iblk_4_eq V c t]
  obtain ⟨-, -, -, -, -, -, -, -, -, -, e0, e1⟩ := idx_facts t
  have hN : grid0.N = 10 := N_0
  have ht : t.val < grid0.N := t.isLt
  funext y
  obtain ⟨p, q, rfl⟩ : ∃ (p : Fin 4000) (q : Fin 256), y = ix2 p q := ⟨y 0, y 1, eq_ix2 (n0 := 4000) (n1 := 256) y⟩
  have hemb : ((cfg0.win 5).blk t).view.emb (ix2 p q) = ix2 (⟨t.val * 4000 + p.val, by omega⟩ : Fin 40000) q :=
    funext fun a => Fin.ext (by
      match a with
      | ⟨0, _⟩ => show win0_5.index t (0 : Fin 2) * 4000 + 1 * p.val = t.val * 4000 + p.val; rw [e0]; omega
      | ⟨1, _⟩ => show win0_5.index t (1 : Fin 2) * 256 + 1 * q.val = q.val; rw [e1]; omega)
  show k0_pay1 (F := Ideal) _ _ _ _ _ (ix2 p q) = G V c (((cfg0.win 5).blk t).view.emb (ix2 p q))
  rw [hemb]
  unfold G
  exact band_entry _ _ _ _ _ _ _ p q _ (fun k => iblk_0_apply V c t p k _ rfl) (fun k => iblk_1_apply V c t p k _ rfl)

/-- An index of the result array is in point t's block iff its row is in the block's range of rows. -/
theorem mem_blk (t : Fin cfg0.N) (i : S40000x256.Idx) :
    i ∈ ((cfg0.win 5).blk t).view.set ↔ ∀ a : Fin 2, win0_5.index t a * S4000x256.size a ≤ (i a).val ∧ (i a).val < win0_5.index t a * S4000x256.size a + S4000x256.size a := by
  show i ∈ ((View.whole main_v24).slice (win0_5.rect t)).set ↔ _
  rw [View.set_slice_whole, Rect.mem_set_unit]
  exact Iff.rfl

/-- Every index of the result array is in the block of the point its row falls to. -/
theorem cover (i : S40000x256.Idx) : ∃ t : Fin cfg0.N, (cfg0.win 5).flush t = true ∧ i ∈ ((cfg0.win 5).blk t).view.set := by
  have hi0 : (i 0).val < 40000 := (i 0).isLt
  have hi1 : (i 1).val < 256 := (i 1).isLt
  have hN : grid0.N = 10 := N_0
  refine ⟨⟨(i 0).val / 4000, by show _ < grid0.N; rw [hN]; omega⟩, flush0_5 _, ?_⟩
  rw [mem_blk]
  obtain ⟨-, -, -, -, -, -, -, -, -, -, e0, e1⟩ := idx_facts ⟨(i 0).val / 4000, by show _ < grid0.N; rw [hN]; omega⟩
  intro a
  match a with
  | ⟨0, _⟩ =>
    show win0_5.index _ (0 : Fin 2) * 4000 ≤ (i 0).val ∧ (i 0).val < win0_5.index _ (0 : Fin 2) * 4000 + 4000
    rw [e0]; show (i 0).val / 4000 * 4000 ≤ (i 0).val ∧ (i 0).val < (i 0).val / 4000 * 4000 + 4000; omega
  | ⟨1, _⟩ =>
    show win0_5.index _ (1 : Fin 2) * 256 ≤ (i 1).val ∧ (i 1).val < win0_5.index _ (1 : Fin 2) * 256 + 256
    rw [e1]; omega

/-- The result array after the region: `G` of the arrays the region is entered with. -/
theorem final (c : Dev nD) : (dat0 V c).arrAt 5 cfg0.N = G V c :=
  (dat0 V c).arrAt_eq_of_cover 5 (G V c) (fun t _ => flushed_eq V c t) cover

end Cert.KernelIdeal.Reg0

end
-- ==== Proof.KReg1.lean ====
/-
  The second layer's kernel region: what its result array holds when the region is left.
  The kernel runs over ten grid points; point t loads rows 4000·t … 4000·t + 3999 of the mean matrix and of the feature
  matrix, the whole of both weight matrices and of the bias row, and writes back rows 4000·t … 4000·t + 3999 of the
  result. An entry of a product of a band of rows with a whole matrix is the entry of the whole product at the band's
  place, so what point t writes back is its block of ONE function of the arrays the region is entered with —
  the layer's entry of the whole mean and feature matrices — and the ten blocks tile the result array, which therefore ends holding that function.
-/
import proofs.«110139_j2087354105996_1_alg».proof.Proof.Gen.KernelIdeal.Frame
import Idealize.ShloMosaic.Lib.Pipeline.Value
import proofs.«110139_j2087354105996_1_alg».proof.Proof.KPay

set_option maxRecDepth 16384

noncomputable section

namespace Cert.KernelIdeal.Reg1

open Cert.KernelIdeal Cert.KernelIdeal.Gen
open Idealize.ShloMosaic Idealize.ShloMosaic.TcCoe Idealize.SL.Sem Idealize.ShloMosaic.ValueIdx
open Idealize.ShloMosaic.Pipeline (Dat)
open Cert.LibMatProd

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the two row-banded inputs and the output are at block row t, the weights and
    the bias row at their one block. -/
theorem idx_facts : ∀ t : Fin cfg1.N,
    win1_0.index t (0 : Fin 2) = t.val ∧ win1_0.index t (1 : Fin 2) = 0
  ∧ win1_1.index t (0 : Fin 2) = t.val ∧ win1_1.index t (1 : Fin 2) = 0
  ∧ win1_2.index t (0 : Fin 2) = 0 ∧ win1_2.index t (1 : Fin 2) = 0
  ∧ win1_3.index t (0 : Fin 2) = 0 ∧ win1_3.index t (1 : Fin 2) = 0
  ∧ win1_4.index t (0 : Fin 2) = 0 ∧ win1_4.index t (1 : Fin 2) = 0
  ∧ win1_5.index t (0 : Fin 2) = t.val ∧ win1_5.index t (1 : Fin 2) = 0 :=
  (by decide +kernel : ∀ t : Fin grid1.N, _)

/-- The function the result array ends holding: the layer's entry of the whole mean and feature matrices. -/
def G (c : Dev nD) : Buf (Elt Ideal) ((c : Thread nD τ).loc main_v45) :=
  Cert.Sage.lin (n := 40000) (K := 256) (b := 128) (V c main_v43) (V c main_v24) (V c main_arg5) (V c main_arg6) (V c main_v44)

/-- An entry of the layer computed from a band of rows is the entry of the layer computed from the whole matrices at the
    band's place: each product's sum runs over the same pairs of entries. -/
theorem band_entry (x0 x1 : Vec Ideal S4000x256 .f32) (x2 x3 : Vec Ideal S256x128 .f32) (x4 : Vec Ideal S1x128 .f32)
    (A0 A1 : S40000x256.Idx → EReal) (p : Fin 4000) (q : Fin 128) (P : Fin 40000)
    (h0 : ∀ k : Fin 256, x0 (ix2 p k) = A0 (ix2 P k)) (h1 : ∀ k : Fin 256, x1 (ix2 p k) = A1 (ix2 P k)) :
    k1_pay1 (F := Ideal) x0 x1 x2 x3 x4 (ix2 p q) = Cert.Sage.lin A0 A1 x2 x3 x4 (ix2 P q) := by
  rw [Pay.pay1_apply]
  unfold Cert.Sage.lin
  rw [mm_entry_congr x0 x2 A0 x2 (ix2 p q) (ix2 P q) h0 (fun _ => rfl),
    mm_entry_congr x1 x3 A1 x3 (ix2 p q) (ix2 P q) h1 (fun _ => rfl)]

/-- Row p of the mean matrix's block at point t is row 4000·t + p of the array. -/
theorem iblk_0_apply (c : Dev nD) (t : Fin cfg1.N) (p : Fin 4000) (k : Fin 256) (P : Fin 40000) (hP : P.val = t.val * 4000 + p.val) :
    (iblk1 V c 0 t : Vec Ideal S4000x256 .f32) (ix2 p k) = (V c main_v43 : S40000x256.Idx → EReal) (ix2 P k) := by
  obtain ⟨e0, e1, -⟩ := idx_facts t
  unfold iblk1
  rw [View.read_apply]
  show V c main_v43 _ = V c main_v43 _
  refine congrArg _ (funext fun a => Fin.ext ?_)
  match a with
  | ⟨0, _⟩ => show win1_0.index t (0 : Fin 2) * 4000 + 1 * p.val = P.val; rw [e0, hP]; omega
  | ⟨1, _⟩ => show win1_0.index t (1 : Fin 2) * 256 + 1 * k.val = k.val; rw [e1]; omega

/-- Row p of the feature matrix's block at point t is row 4000·t + p of the array. -/
theorem iblk_1_apply (c : Dev nD) (t : Fin cfg1.N) (p : Fin 4000) (k : Fin 256) (P : Fin 40000) (hP : P.val = t.val * 4000 + p.val) :
    (iblk1 V c 1 t : Vec Ideal S4000x256 .f32) (ix2 p k) = (V c main_v24 : S40000x256.Idx → EReal) (ix2 P k) := by
  obtain ⟨-, -, e0, e1, -⟩ := idx_facts t
  unfold iblk1
  rw [View.read_apply]
  show V c main_v24 _ = V c main_v24 _
  refine congrArg _ (funext fun a => Fin.ext ?_)
  match a with
  | ⟨0, _⟩ => show win1_1.index t (0 : Fin 2) * 4000 + 1 * p.val = P.val; rw [e0, hP]; omega
  | ⟨1, _⟩ => show win1_1.index t (1 : Fin 2) * 256 + 1 * k.val = k.val; rw [e1]; omega

/-- The left weight matrix's one block is the array. -/
theorem iblk_2_eq (c : Dev nD) (t : Fin cfg1.N) :
    (iblk1 V c 2 t : Vec Ideal S256x128 .f32) = (V c main_arg5 : S256x128.Idx → EReal) := by
  obtain ⟨-, -, -, -, e0, e1, -⟩ := idx_facts t
  funext j
  unfold iblk1
  rw [View.read_apply]
  show V c main_arg5 _ = V c main_arg5 j
  refine congrArg _ (funext fun a => Fin.ext ?_)
  match a with
  | ⟨0, _⟩ => show win1_2.index t (0 : Fin 2) * 256 + 1 * (j 0).val = (j 0).val; rw [e0]; omega
  | ⟨1, _⟩ => show win1_2.index t (1 : Fin 2) * 128 + 1 * (j 1).val = (j 1).val; rw [e1]; omega

/-- The right weight matrix's one block is the array. -/
theorem iblk_3_eq (c : Dev nD) (t : Fin cfg1.N) :
    (iblk1 V c 3 t : Vec Ideal S256x128 .f32) = (V c main_arg6 : S256x128.Idx → EReal) := by
  obtain ⟨-, -, -, -, -, -, e0, e1, -⟩ := idx_facts t
  funext j
  unfold iblk1
  rw [View.read_apply]
  show V c main_arg6 _ = V c main_arg6 j
  refine congrArg _ (funext fun a => Fin.ext ?_)
  match a with
  | ⟨0, _⟩ => show win1_3.index t (0 : Fin 2) * 256 + 1 * (j 0).val = (j 0).val; rw [e0]; omega
  | ⟨1, _⟩ => show win1_3.index t (1 : Fin 2) * 128 + 1 * (j 1).val = (j 1).val; rw [e1]; omega

/-- The bias row's one block is the array. -/
theorem iblk_4_eq (c : Dev nD) (t : Fin cfg1.N) :
    (iblk1 V c 4 t : Vec Ideal S1x128 .f32) = (V c main_v44 : S1x128.Idx → EReal) := by
  obtain ⟨-, -, -, -, -, -, -, -, e0, e1, -⟩ := idx_facts t
  funext j
  unfold iblk1
  rw [View.read_apply]
  show V c main_v44 _ = V c main_v44 j
  refine congrArg _ (funext fun a => Fin.ext ?_)
  match a with
  | ⟨0, _⟩ => show win1_4.index t (0 : Fin 2) * 1 + 1 * (j 0).val = (j 0).val; rw [e0]; omega
  | ⟨1, _⟩ => show win1_4.index t (1 : Fin 2) * 128 + 1 * (j 1).val = (j 1).val; rw [e1]; omega

/-- What point t writes back is block t of `G`. -/
theorem flushed_eq (c : Dev nD) (t : Fin cfg1.N) :
    (dat1 V c).flushed 5 t = ((cfg1.win 5).blk t).view.read (Elt Ideal) (G V c) := by
  show (cfg1.win 5).cut (grid1.coords t) ((dat1 V c).after 5 t) = _
  rw [after1_5]
  unfold out1_5
  rw [View.canon_unit_zero hz]
  simp only [View.ld_unit_zero (S := S4000x256) hz, View.ld_unit_zero (S := S256x128) hz, View.ld_unit_zero (S := S1x128) hz]
  rw [iblk_2_eq V c t, iblk_3_eq V c t, iblk_4_eq V c t]
  obtain ⟨-, -, -, -, -, -, -, -, -, -, e0, e1⟩ := idx_facts t
  have hN : grid1.N = 10 := N_1
  have ht : t.val < grid1.N := t.isLt
  funext y
  obtain ⟨p, q, rfl⟩ : ∃ (p : Fin 4000) (q : Fin 128), y = ix2 p q := ⟨y 0, y 1, eq_ix2 (n0 := 4000) (n1 := 128) y⟩
  have hemb : ((cfg1.win 5).blk t).view.emb (ix2 p q) = ix2 (⟨t.val * 4000 + p.val, by omega⟩ : Fin 40000) q :=
    funext fun a => Fin.ext (by
      match a with
      | ⟨0, _⟩ => show win1_5.index t (0 : Fin 2) * 4000 + 1 * p.val = t.val * 4000 + p.val; rw [e0]; omega
      | ⟨1, _⟩ => show win1_5.index t (1 : Fin 2) * 128 + 1 * q.val = q.val; rw [e1]; omega)
  show k1_pay1 (F := Ideal) _ _ _ _ _ (ix2 p q) = G V c (((cfg1.win 5).blk t).view.emb (ix2 p q))
  rw [hemb]
  unfold G
  exact band_entry _ _ _ _ _ _ _ p q _ (fun k => iblk_0_apply V c t p k _ rfl) (fun k => iblk_1_apply V c t p k _ rfl)

/-- An index of the result array is in point t's block iff its row is in the block's range of rows. -/
theorem mem_blk (t : Fin cfg1.N) (i : S40000x128.Idx) :
    i ∈ ((cfg1.win 5).blk t).view.set ↔ ∀ a : Fin 2, win1_5.index t a * S4000x128.size a ≤ (i a).val ∧ (i a).val < win1_5.index t a * S4000x128.size a + S4000x128.size a := by
  show i ∈ ((View.whole main_v45).slice (win1_5.rect t)).set ↔ _
  rw [View.set_slice_whole, Rect.mem_set_unit]
  exact Iff.rfl

/-- Every index of the result array is in the block of the point its row falls to. -/
theorem cover (i : S40000x128.Idx) : ∃ t : Fin cfg1.N, (cfg1.win 5).flush t = true ∧ i ∈ ((cfg1.win 5).blk t).view.set := by
  have hi0 : (i 0).val < 40000 := (i 0).isLt
  have hi1 : (i 1).val < 128 := (i 1).isLt
  have hN : grid1.N = 10 := N_1
  refine ⟨⟨(i 0).val / 4000, by show _ < grid1.N; rw [hN]; omega⟩, flush1_5 _, ?_⟩
  rw [mem_blk]
  obtain ⟨-, -, -, -, -, -, -, -, -, -, e0, e1⟩ := idx_facts ⟨(i 0).val / 4000, by show _ < grid1.N; rw [hN]; omega⟩
  intro a
  match a with
  | ⟨0, _⟩ =>
    show win1_5.index _ (0 : Fin 2) * 4000 ≤ (i 0).val ∧ (i 0).val < win1_5.index _ (0 : Fin 2) * 4000 + 4000
    rw [e0]; show (i 0).val / 4000 * 4000 ≤ (i 0).val ∧ (i 0).val < (i 0).val / 4000 * 4000 + 4000; omega
  | ⟨1, _⟩ =>
    show win1_5.index _ (1 : Fin 2) * 128 ≤ (i 1).val ∧ (i 1).val < win1_5.index _ (1 : Fin 2) * 128 + 128
    rw [e1]; omega

/-- The result array after the region: `G` of the arrays the region is entered with. -/
theorem final (c : Dev nD) : (dat1 V c).arrAt 5 cfg1.N = G V c :=
  (dat1 V c).arrAt_eq_of_cover 5 (G V c) (fun t _ => flushed_eq V c t) cover

end Cert.KernelIdeal.Reg1

end
-- ==== Proof.KHost.lean ====
/-
  What the idealized kernel program's result buffer holds after the run, as one function of the argument arrays.
  The host operations build, from the edge list, the source and destination node of every edge; a neighbourhood mean
  is the sum of the source rows scattered to the destination nodes, divided by the larger of the number of incoming
  edges and one. The first kernel region is entered with the means of the feature matrix and leaves the activated first
  layer; the host operations between the regions build the means of that layer with the same edge list; the second
  region leaves the second layer. Each region's result array is the layer's function of the arrays the region is entered
  with, and those arrays are read back through the host operations to the arguments.
-/
import proofs.«110139_j2087354105996_1_alg».proof.Proof.Gen.KernelIdeal.Frame
import proofs.«110139_j2087354105996_1_alg».proof.Proof.KReg0
import proofs.«110139_j2087354105996_1_alg».proof.Proof.KReg1

set_option maxRecDepth 16384

noncomputable section

namespace Cert.KernelIdeal.Val

open Cert.KernelIdeal Cert.KernelIdeal.Gen
open Idealize.ShloMosaic Idealize.ShloMosaic.TcCoe Idealize.SL.Sem Idealize.ShloMosaic.StableHlo

section Defs

variable {F : FTy → Type} [FloatOps F]

/-- Every edge's source node: row 0 of the edge list. -/
def srcOf (e : (⟨S2x640000, .i32⟩ : BufTy).Contents (Elt F)) : (⟨S640000, .i32⟩ : BufTy).Contents (Elt F) :=
  shapeCast S640000 (extractStridedSlice S1x640000 ![0, 0] e slices_S2x640000_S1x640000_0_0) shapeCasts_S1x640000_S640000

/-- Every edge's destination node: row 1 of the edge list. -/
def dstOf (e : (⟨S2x640000, .i32⟩ : BufTy).Contents (Elt F)) : (⟨S640000, .i32⟩ : BufTy).Contents (Elt F) :=
  shapeCast S640000 (extractStridedSlice S1x640000 ![1, 0] e slices_S2x640000_S1x640000_1_0) shapeCasts_S1x640000_S640000

/-- The source nodes as gather start indices: a negative node counted from the end, laid out as a column. -/
def starts (s : (⟨S640000, .i32⟩ : BufTy).Contents (Elt F)) : (⟨S640000x1, .i32⟩ : BufTy).Contents (Elt F) :=
  broadcastInDim S640000x1 ![0] bcast_S640000_S640000x1_0
    (select (cmpi .slt s (broadcastInDim S640000 ![] bcast_S_S640000 (constantI S_ 32 0#32)))
      (addi s (broadcastInDim S640000 ![] bcast_S_S640000 (constantI S_ 32 40000#32))) s)

/-- The destination nodes laid out as a column of scatter indices. -/
def col (d : (⟨S640000, .i32⟩ : BufTy).Contents (Elt F)) : (⟨S640000x1, .i32⟩ : BufTy).Contents (Elt F) :=
  broadcastInDim S640000x1 ![0] bcast_S640000_S640000x1_0 d

/-- Per node, the larger of its number of incoming edges and one. -/
def degree (d : (⟨S640000, .i32⟩ : BufTy).Contents (Elt F)) : (⟨S40000, .f32⟩ : BufTy).Contents (Elt F) :=
  maximumf
    (Host.scatterAdd scatter_S40000_S640000x1_S640000_n_0_0_1
      (broadcastInDim S40000 ![] bcast_S_S40000 (constant S_ .f32 0x00000000#32)) (col d)
      (broadcastInDim S640000 ![] bcast_S_S640000 (constant S_ .f32 0x3F800000#32)))
    (broadcastInDim S40000 ![] bcast_S_S40000 (constant S_ .f32 0x3F800000#32))

/-- The neighbourhood means of a [40000,128] matrix. -/
def mean128 (x : (⟨S40000x128, .f32⟩ : BufTy).Contents (Elt F)) (s d : (⟨S640000, .i32⟩ : BufTy).Contents (Elt F)) : (⟨S40000x128, .f32⟩ : BufTy).Contents (Elt F) :=
  Host.divf
    (Host.scatterAdd scatter_S40000x128_S640000x1_S640000x128_1_0_0_1
      (broadcastInDim S40000x128 ![] bcast_S_S40000x128 (constant S_ .f32 0x00000000#32)) (col d)
      (Host.gather gather_S40000x128_S640000x1_S640000x128_1_0_n_n_0_1_1128 x (starts s)))
    (broadcastInDim S40000x128 ![0, 1] bcast_S40000x1_S40000x128_0_1
      (broadcastInDim S40000x1 ![0] bcast_S40000_S40000x1_0 (degree d)))

/-- The neighbourhood means of a [40000,256] matrix. -/
def mean256 (h : (⟨S40000x256, .f32⟩ : BufTy).Contents (Elt F)) (s d : (⟨S640000, .i32⟩ : BufTy).Contents (Elt F)) : (⟨S40000x256, .f32⟩ : BufTy).Contents (Elt F) :=
  Host.divf
    (Host.scatterAdd scatter_S40000x256_S640000x1_S640000x256_1_0_0_1
      (broadcastInDim S40000x256 ![] bcast_S_S40000x256 (constant S_ .f32 0x00000000#32)) (col d)
      (Host.gather gather_S40000x256_S640000x1_S640000x256_1_0_n_n_0_1_1256 h (starts s)))
    (broadcastInDim S40000x256 ![0, 1] bcast_S40000x1_S40000x256_0_1
      (broadcastInDim S40000x1 ![0] bcast_S40000_S40000x1_0 (degree d)))

/-- A bias vector laid out as one row. -/
def row256 (b : (⟨S256, .f32⟩ : BufTy).Contents (Elt F)) : (⟨S1x256, .f32⟩ : BufTy).Contents (Elt F) := shapeCast S1x256 b shapeCasts_S256_S1x256
def row128 (b : (⟨S128, .f32⟩ : BufTy).Contents (Elt F)) : (⟨S1x128, .f32⟩ : BufTy).Contents (Elt F) := shapeCast S1x128 b shapeCasts_S128_S1x128

end Defs

/-- The activated first layer as a function of the arguments. -/
def hidden (x : (⟨S40000x128, .f32⟩ : BufTy).Contents (Elt Ideal)) (e : (⟨S2x640000, .i32⟩ : BufTy).Contents (Elt Ideal))
    (w1l w1r : (⟨S128x256, .f32⟩ : BufTy).Contents (Elt Ideal)) (b1 : (⟨S256, .f32⟩ : BufTy).Contents (Elt Ideal)) :
    (⟨S40000x256, .f32⟩ : BufTy).Contents (Elt Ideal) :=
  Cert.Sage.linRelu (n := 40000) (K := 128) (b := 256) (mean128 x (srcOf e) (dstOf e)) x w1l w1r (row256 b1)

/-- The result as a function of the arguments: the second layer of the first. -/
def out (x : (⟨S40000x128, .f32⟩ : BufTy).Contents (Elt Ideal)) (e : (⟨S2x640000, .i32⟩ : BufTy).Contents (Elt Ideal))
    (w1l w1r : (⟨S128x256, .f32⟩ : BufTy).Contents (Elt Ideal)) (b1 : (⟨S256, .f32⟩ : BufTy).Contents (Elt Ideal))
    (w2l w2r : (⟨S256x128, .f32⟩ : BufTy).Contents (Elt Ideal)) (b2 : (⟨S128, .f32⟩ : BufTy).Contents (Elt Ideal)) :
    (⟨S40000x128, .f32⟩ : BufTy).Contents (Elt Ideal) :=
  Cert.Sage.lin (n := 40000) (K := 256) (b := 128) (mean256 (hidden x e w1l w1r b1) (srcOf e) (dstOf e)) (hidden x e w1l w1r b1) w2l w2r (row128 b2)

variable (m : (ℓ : Loc nD τ sig) → Buf (Elt Ideal) ℓ) (ρ : Dev nD → PrngReg)

/-! ## The first region's entry contents, read back to the arguments -/

set_option maxHeartbeats 4000000 in
theorem v1_means (c : Dev nD) : V1 m ρ c main_v22
    = mean128 (m ((c : Thread nD τ).loc main_arg0)) (srcOf (m ((c : Thread nD τ).loc main_arg1))) (dstOf (m ((c : Thread nD τ).loc main_arg1))) := by
  show StableHlo.after hostOps0 (W0 m ρ c) (Proc.devRef .tc main_v22) = _
  after_results_simp
  rfl

set_option maxHeartbeats 4000000 in
theorem v1_src (c : Dev nD) : W1 m ρ c (Proc.devRef .tc main_v1) = srcOf (m ((c : Thread nD τ).loc main_arg1)) := by
  show StableHlo.after hostOps0 (W0 m ρ c) (Proc.devRef .tc main_v1) = _
  after_results_simp
  rfl

set_option maxHeartbeats 4000000 in
theorem v1_dst (c : Dev nD) : W1 m ρ c (Proc.devRef .tc main_v3) = dstOf (m ((c : Thread nD τ).loc main_arg1)) := by
  show StableHlo.after hostOps0 (W0 m ρ c) (Proc.devRef .tc main_v3) = _
  after_results_simp
  rfl

set_option maxHeartbeats 4000000 in
theorem v1_row (c : Dev nD) : V1 m ρ c main_v23 = row256 (m ((c : Thread nD τ).loc main_arg4)) := by
  show StableHlo.after hostOps0 (W0 m ρ c) (Proc.devRef .tc main_v23) = _
  after_results_simp
  rfl

set_option maxHeartbeats 4000000 in
theorem v1_arg0 (c : Dev nD) : V1 m ρ c main_arg0 = m ((c : Thread nD τ).loc main_arg0) := by
  show StableHlo.after hostOps0 (W0 m ρ c) (Proc.devRef .tc main_arg0) = _
  after_results_simp

set_option maxHeartbeats 4000000 in
theorem v1_arg2 (c : Dev nD) : V1 m ρ c main_arg2 = m ((c : Thread nD τ).loc main_arg2) := by
  show StableHlo.after hostOps0 (W0 m ρ c) (Proc.devRef .tc main_arg2) = _
  after_results_simp

set_option maxHeartbeats 4000000 in
theorem v1_arg3 (c : Dev nD) : V1 m ρ c main_arg3 = m ((c : Thread nD τ).loc main_arg3) := by
  show StableHlo.after hostOps0 (W0 m ρ c) (Proc.devRef .tc main_arg3) = _
  after_results_simp

set_option maxHeartbeats 4000000 in
theorem w1_arg5 (c : Dev nD) : W1 m ρ c (Proc.devRef .tc main_arg5) = m ((c : Thread nD τ).loc main_arg5) := by
  show StableHlo.after hostOps0 (W0 m ρ c) (Proc.devRef .tc main_arg5) = _
  after_results_simp

set_option maxHeartbeats 4000000 in
theorem w1_arg6 (c : Dev nD) : W1 m ρ c (Proc.devRef .tc main_arg6) = m ((c : Thread nD τ).loc main_arg6) := by
  show StableHlo.after hostOps0 (W0 m ρ c) (Proc.devRef .tc main_arg6) = _
  after_results_simp

set_option maxHeartbeats 4000000 in
theorem w1_arg7 (c : Dev nD) : W1 m ρ c (Proc.devRef .tc main_arg7) = m ((c : Thread nD τ).loc main_arg7) := by
  show StableHlo.after hostOps0 (W0 m ρ c) (Proc.devRef .tc main_arg7) = _
  after_results_simp

/-- The first region leaves the activated first layer of the arguments in its result array. -/
theorem w2_hidden (c : Dev nD) : W2 m ρ c (Proc.devRef .tc main_v24)
    = hidden (m ((c : Thread nD τ).loc main_arg0)) (m ((c : Thread nD τ).loc main_arg1)) (m ((c : Thread nD τ).loc main_arg2))
        (m ((c : Thread nD τ).loc main_arg3)) (m ((c : Thread nD τ).loc main_arg4)) := by
  refine (W2_arr m ρ c 5).trans ((Reg0.final (V1 m ρ) c).trans ?_)
  unfold Reg0.G hidden
  rw [v1_means m ρ c, v1_row m ρ c, v1_arg0 m ρ c, v1_arg2 m ρ c, v1_arg3 m ρ c]

/-! ## The second region's entry contents -/

set_option maxHeartbeats 4000000 in
theorem v3_means (c : Dev nD) : V3 m ρ c main_v43
    = mean256 (W2 m ρ c (Proc.devRef .tc main_v24)) (W2 m ρ c (Proc.devRef .tc main_v1)) (W2 m ρ c (Proc.devRef .tc main_v3)) := by
  show StableHlo.after hostOps1 (W2 m ρ c) (Proc.devRef .tc main_v43) = _
  after_results_simp
  rfl

set_option maxHeartbeats 4000000 in
theorem v3_hidden (c : Dev nD) : V3 m ρ c main_v24 = W2 m ρ c (Proc.devRef .tc main_v24) := by
  show StableHlo.after hostOps1 (W2 m ρ c) (Proc.devRef .tc main_v24) = _
  after_results_simp

set_option maxHeartbeats 4000000 in
theorem v3_row (c : Dev nD) : V3 m ρ c main_v44 = row128 (W2 m ρ c (Proc.devRef .tc main_arg7)) := by
  show StableHlo.after hostOps1 (W2 m ρ c) (Proc.devRef .tc main_v44) = _
  after_results_simp
  rfl

set_option maxHeartbeats 4000000 in
theorem v3_arg5 (c : Dev nD) : V3 m ρ c main_arg5 = W2 m ρ c (Proc.devRef .tc main_arg5) := by
  show StableHlo.after hostOps1 (W2 m ρ c) (Proc.devRef .tc main_arg5) = _
  after_results_simp

set_option maxHeartbeats 4000000 in
theorem v3_arg6 (c : Dev nD) : V3 m ρ c main_arg6 = W2 m ρ c (Proc.devRef .tc main_arg6) := by
  show StableHlo.after hostOps1 (W2 m ρ c) (Proc.devRef .tc main_arg6) = _
  after_results_simp

/-- THE RESULT: the last boundary's contents at the result buffer are `out` of the arguments. -/
theorem result_eq (c : Dev nD) : W4 m ρ c (Proc.devRef .tc main_v45)
    = out (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  refine (W4_arr m ρ c 5).trans ((Reg1.final (V3 m ρ) c).trans ?_)
  unfold Reg1.G out
  rw [v3_means m ρ c, v3_hidden m ρ c, v3_row m ρ c, v3_arg5 m ρ c, v3_arg6 m ρ c, w2_hidden m ρ c,
    W2_of_ne m ρ c main_v1 (by decide), W2_of_ne m ρ c main_v3 (by decide), W2_of_ne m ρ c main_arg5 (by decide),
    W2_of_ne m ρ c main_arg6 (by decide), W2_of_ne m ρ c main_arg7 (by decide),
    v1_src m ρ c, v1_dst m ρ c, w1_arg5 m ρ c, w1_arg6 m ρ c, w1_arg7 m ρ c]

end Cert.KernelIdeal.Val

end
-- ==== Proof.RefVal.lean ====
/-
  The idealized reference, read as two graph layers. Each layer is the sum of the product of the neighbourhood means
  with the left weights, the bias row repeated down the rows, and the product of the features with the right weights —
  the bias added between the two products; the first layer is followed by the maximum with zero. Entry by entry this is
  the layer with the bias added last: addition on the extended reals is commutative and associative. The second
  layer's means are built from the first layer's result by the same host operations as the first means.
-/
import proofs.«110139_j2087354105996_1_alg».proof.Proof.Gen.ReferenceIdeal.Read
import proofs.«110139_j2087354105996_1_alg».proof.Proof.Spec

noncomputable section

namespace Cert.ReferenceIdeal.RefValue

open Cert.ReferenceIdeal Cert.ReferenceIdeal.Gen Cert.ReferenceIdeal.Read
open Idealize.ShloMosaic Idealize.ShloMosaic.ValueIdx

section AnyFloats

variable {F : FTy → Type} [FloatOps F]

/-- The second layer's neighbourhood means as a function of the matrix they are taken of. -/
def means2 (h : (⟨S40000x256, .f32⟩ : BufTy).Contents (Elt F)) (x1 : (⟨S2x640000, .i32⟩ : BufTy).Contents (Elt F)) : (⟨S40000x256, .f32⟩ : BufTy).Contents (Elt F) :=
  Host.divf
    (Host.scatterAdd scatter_S40000x256_S640000x1_S640000x256_1_0_0_1 (val_main_v41 (F := F)) (val_main_v42 (F := F) x1)
      (Host.gather gather_S40000x256_S640000x1_S640000x256_1_0_n_n_0_1_1256 h (val_main_v39 (F := F) x1)))
    (val_main_v51 (F := F) x1)

theorem means2_eq' (x0 : (⟨S40000x128, .f32⟩ : BufTy).Contents (Elt F)) (x1 : (⟨S2x640000, .i32⟩ : BufTy).Contents (Elt F)) (x2 x3 : (⟨S128x256, .f32⟩ : BufTy).Contents (Elt F))
    (x4 : (⟨S256, .f32⟩ : BufTy).Contents (Elt F)) :
    val_main_v52 (F := F) x0 x1 x2 x3 x4 = means2 (val_main_v29 (F := F) x0 x1 x2 x3 x4) x1 := rfl

end AnyFloats

variable (x0 : (⟨S40000x128, .f32⟩ : BufTy).Contents (Elt Ideal)) (x1 : (⟨S2x640000, .i32⟩ : BufTy).Contents (Elt Ideal)) (x2 x3 : (⟨S128x256, .f32⟩ : BufTy).Contents (Elt Ideal))
  (x4 : (⟨S256, .f32⟩ : BufTy).Contents (Elt Ideal)) (x5 x6 : (⟨S256x128, .f32⟩ : BufTy).Contents (Elt Ideal)) (x7 : (⟨S128, .f32⟩ : BufTy).Contents (Elt Ideal))

/-- The reference's first layer with its activation, entry by entry. -/
theorem hidden_eq : val_main_v29 (F := Ideal) x0 x1 x2 x3 x4
    = Cert.Sage.linRelu (n := 40000) (K := 128) (b := 256) (val_main_v22 (F := Ideal) x0 x1) x0 x2 x3 (val_main_v24 (F := Ideal) x4) := by
  funext i
  rw [val_main_v29_apply, val_main_v28_apply, val_main_v26_apply, val_main_v23_apply, val_main_v27_apply, val_main_v25_apply,
    val_main_call0_v0_apply, val_main_call0_cst_apply]
  have el : ∀ k, lidx_main_v23 i k = ix2 (i 0) k := fun k => funext fun a => Fin.ext (by match a with | ⟨0, _⟩ => rfl | ⟨1, _⟩ => rfl)
  have er : ∀ k, ridx_main_v23 i k = ix2 k (i 1) := fun k => funext fun a => Fin.ext (by match a with | ⟨0, _⟩ => rfl | ⟨1, _⟩ => rfl)
  have el' : ∀ k, lidx_main_v27 i k = ix2 (i 0) k := fun k => funext fun a => Fin.ext (by match a with | ⟨0, _⟩ => rfl | ⟨1, _⟩ => rfl)
  have er' : ∀ k, ridx_main_v27 i k = ix2 k (i 1) := fun k => funext fun a => Fin.ext (by match a with | ⟨0, _⟩ => rfl | ⟨1, _⟩ => rfl)
  have eb : idx_main_v25 i = ix2 (0 : Fin 1) (i 1) := funext fun a => Fin.ext (by match a with | ⟨0, _⟩ => rfl | ⟨1, _⟩ => rfl)
  simp only [el, er, el', er', eb]
  exact congrArg (fun z => max z (Ideal.ofBits .f32 0x00000000#32)) (Cert.Sage.lin_bias_first _ _ _ _ _ i)

/-- The reference's second layer, entry by entry, over its means and the first layer's result. -/
theorem out_eq : val_main_v58 (F := Ideal) x0 x1 x2 x3 x4 x5 x6 x7
    = Cert.Sage.lin (n := 40000) (K := 256) (b := 128) (val_main_v52 (F := Ideal) x0 x1 x2 x3 x4) (val_main_v29 (F := Ideal) x0 x1 x2 x3 x4) x5 x6
        (val_main_v54 (F := Ideal) x7) := by
  funext i
  rw [val_main_v58_apply, val_main_v56_apply, val_main_v53_apply, val_main_v57_apply, val_main_v55_apply]
  have el : ∀ k, lidx_main_v53 i k = ix2 (i 0) k := fun k => funext fun a => Fin.ext (by match a with | ⟨0, _⟩ => rfl | ⟨1, _⟩ => rfl)
  have er : ∀ k, ridx_main_v53 i k = ix2 k (i 1) := fun k => funext fun a => Fin.ext (by match a with | ⟨0, _⟩ => rfl | ⟨1, _⟩ => rfl)
  have el' : ∀ k, lidx_main_v57 i k = ix2 (i 0) k := fun k => funext fun a => Fin.ext (by match a with | ⟨0, _⟩ => rfl | ⟨1, _⟩ => rfl)
  have er' : ∀ k, ridx_main_v57 i k = ix2 k (i 1) := fun k => funext fun a => Fin.ext (by match a with | ⟨0, _⟩ => rfl | ⟨1, _⟩ => rfl)
  have eb : idx_main_v55 i = ix2 (0 : Fin 1) (i 1) := funext fun a => Fin.ext (by match a with | ⟨0, _⟩ => rfl | ⟨1, _⟩ => rfl)
  simp only [el, er, el', er', eb]
  exact Cert.Sage.lin_bias_first _ _ _ _ _ i

theorem means2_eq : val_main_v52 (F := Ideal) x0 x1 x2 x3 x4 = means2 (val_main_v29 (F := Ideal) x0 x1 x2 x3 x4) x1 :=
  means2_eq' x0 x1 x2 x3 x4

/-- The activated first layer as a function of the arguments. -/
def hidden : (⟨S40000x256, .f32⟩ : BufTy).Contents (Elt Ideal) :=
  Cert.Sage.linRelu (n := 40000) (K := 128) (b := 256) (val_main_v22 (F := Ideal) x0 x1) x0 x2 x3 (val_main_v24 (F := Ideal) x4)

/-- The result as a function of the arguments. -/
def out : (⟨S40000x128, .f32⟩ : BufTy).Contents (Elt Ideal) :=
  Cert.Sage.lin (n := 40000) (K := 256) (b := 128) (means2 (hidden x0 x1 x2 x3 x4) x1) (hidden x0 x1 x2 x3 x4) x5 x6 (val_main_v54 (F := Ideal) x7)

theorem result_eq : val_main_v58 (F := Ideal) x0 x1 x2 x3 x4 x5 x6 x7 = out x0 x1 x2 x3 x4 x5 x6 x7 := by
  rw [out_eq, means2_eq, hidden_eq]
  rfl

end Cert.ReferenceIdeal.RefValue

end
-- ==== Proof.Bridge.lean ====
/-
  The kernel program's function of the arguments is the reference's. Both build the source and destination nodes, the
  gather start indices, the degrees and the two neighbourhood means by the same host operations with the same dimension
  numbers, so those terms agree as written; a bias vector cast to one row and the same vector broadcast to one row have
  the same entries; and both layers are the same entry-by-entry function of the means, the features, the weights and the
  bias row.
-/
import proofs.«110139_j2087354105996_1_alg».proof.Proof.KHost
import proofs.«110139_j2087354105996_1_alg».proof.Proof.RefVal
import Idealize.ShloMosaic.Lib.ValueLayout

noncomputable section

namespace Cert.Bridge

open Idealize.ShloMosaic Idealize.ShloMosaic.ValueIdx

variable (x : (⟨Cert.KernelIdeal.S40000x128, .f32⟩ : BufTy).Contents (Elt Ideal)) (e : (⟨Cert.KernelIdeal.S2x640000, .i32⟩ : BufTy).Contents (Elt Ideal)) (w1l w1r : (⟨Cert.KernelIdeal.S128x256, .f32⟩ : BufTy).Contents (Elt Ideal))
  (b1 : (⟨Cert.KernelIdeal.S256, .f32⟩ : BufTy).Contents (Elt Ideal)) (w2l w2r : (⟨Cert.KernelIdeal.S256x128, .f32⟩ : BufTy).Contents (Elt Ideal)) (b2 : (⟨Cert.KernelIdeal.S128, .f32⟩ : BufTy).Contents (Elt Ideal))

/-- The first means: the same host operations on both sides. -/
theorem means1_eq : Cert.KernelIdeal.Val.mean128 (F := Ideal) x (Cert.KernelIdeal.Val.srcOf e) (Cert.KernelIdeal.Val.dstOf e)
    = Cert.ReferenceIdeal.Read.val_main_v22 (F := Ideal) x e := rfl

/-- The second means of any matrix: the same host operations on both sides. -/
theorem means2_eq (h : (⟨Cert.KernelIdeal.S40000x256, .f32⟩ : BufTy).Contents (Elt Ideal)) :
    Cert.KernelIdeal.Val.mean256 (F := Ideal) h (Cert.KernelIdeal.Val.srcOf e) (Cert.KernelIdeal.Val.dstOf e)
      = Cert.ReferenceIdeal.RefValue.means2 (F := Ideal) h e := rfl

/-- A 256-vector cast to one row and the same vector broadcast to one row have the same entries. -/
theorem row256_eq : Cert.KernelIdeal.Val.row256 (F := Ideal) b1 = Cert.ReferenceIdeal.Read.val_main_v24 (F := Ideal) b1 := by
  funext j
  obtain ⟨u, q, rfl⟩ : ∃ (u : Fin 1) (q : Fin 256), j = ix2 u q := ⟨j 0, j 1, eq_ix2 (n0 := 1) (n1 := 256) j⟩
  rw [Cert.ReferenceIdeal.Read.val_main_v24_apply]
  unfold Cert.KernelIdeal.Val.row256
  rw [shapeCast_a_1a_apply]
  exact congrArg b1 (funext fun a => Fin.ext (by match a with | ⟨0, _⟩ => rfl))

/-- A 128-vector cast to one row and the same vector broadcast to one row have the same entries. -/
theorem row128_eq : Cert.KernelIdeal.Val.row128 (F := Ideal) b2 = Cert.ReferenceIdeal.Read.val_main_v54 (F := Ideal) b2 := by
  funext j
  obtain ⟨u, q, rfl⟩ : ∃ (u : Fin 1) (q : Fin 128), j = ix2 u q := ⟨j 0, j 1, eq_ix2 (n0 := 1) (n1 := 128) j⟩
  rw [Cert.ReferenceIdeal.Read.val_main_v54_apply]
  unfold Cert.KernelIdeal.Val.row128
  rw [shapeCast_a_1a_apply]
  exact congrArg b2 (funext fun a => Fin.ext (by match a with | ⟨0, _⟩ => rfl))

/-- The two programs' results are one function of the arguments. -/
theorem out_eq : Cert.KernelIdeal.Val.out x e w1l w1r b1 w2l w2r b2 = Cert.ReferenceIdeal.RefValue.out x e w1l w1r b1 w2l w2r b2 := by
  unfold Cert.KernelIdeal.Val.out Cert.KernelIdeal.Val.hidden Cert.ReferenceIdeal.RefValue.out Cert.ReferenceIdeal.RefValue.hidden
  rw [means1_eq, row256_eq, means2_eq, row128_eq]

end Cert.Bridge

end
-- ==== Proof.lean ====
/-
  Two graph layers with mean aggregation, the kernel program against its reference, on the extended reals.
  Both programs build the neighbourhood means by the same host operations: the rows of the feature matrix gathered at
  every edge's source, summed at its destination, and divided by the larger of the node's number of incoming edges and
  one. A layer is mean·W_l + x·W_r + bias. The kernel program computes each layer in a kernel over ten bands of 4000 rows,
  rounding its operands to bf16 (the identity on the extended reals) and adding the bias last; the reference adds the bias
  between the two products. Addition on the extended reals is commutative and associative, so the two orders agree entry
  by entry and the precondition is never opened. The first layer is followed on both sides by the maximum with zero, and
  the second layer's means are taken of the first layer's result by the same host operations.
  The three frames: the two kernel programs' generated frames, and the reference's generated run with its result dropped.
  The idealization rewrote nothing, so it is preserved trivially.
-/
import proofs.«110139_j2087354105996_1_alg».proof.Defs
import proofs.«110139_j2087354105996_1_alg».proof.Proof.Gen.Kernel
import proofs.«110139_j2087354105996_1_alg».proof.Proof.Gen.Kernel.Skeleton
import proofs.«110139_j2087354105996_1_alg».proof.Proof.Gen.Kernel.Launch
import proofs.«110139_j2087354105996_1_alg».proof.Proof.Gen.Kernel.Points
import proofs.«110139_j2087354105996_1_alg».proof.Proof.Gen.Kernel.Frame
import proofs.«110139_j2087354105996_1_alg».proof.Proof.Gen.KernelIdeal
import proofs.«110139_j2087354105996_1_alg».proof.Proof.Gen.KernelIdeal.Skeleton
import proofs.«110139_j2087354105996_1_alg».proof.Proof.Gen.KernelIdeal.Launch
import proofs.«110139_j2087354105996_1_alg».proof.Proof.Gen.KernelIdeal.Points
import proofs.«110139_j2087354105996_1_alg».proof.Proof.Gen.KernelIdeal.Frame
import proofs.«110139_j2087354105996_1_alg».proof.Proof.Gen.ReferenceIdeal
import proofs.«110139_j2087354105996_1_alg».proof.Proof.Gen.ReferenceIdeal.Run
import proofs.«110139_j2087354105996_1_alg».proof.Proof.Gen.ReferenceIdeal.Read
import proofs.«110139_j2087354105996_1_alg».proof.Proof.Gen.Pre_finite_inputs
import proofs.«110139_j2087354105996_1_alg».proof.Proof.KRun
import proofs.«110139_j2087354105996_1_alg».proof.Proof.KHost
import proofs.«110139_j2087354105996_1_alg».proof.Proof.RefVal
import proofs.«110139_j2087354105996_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result buffer at one function of the arguments: the kernel program's by its run through the
    two regions, the reference's by its run's term read layer by layer; the two functions agree. -/
theorem algebraic : Cert.algebraic_KernelIdeal_ReferenceIdeal := by
  intro m ρ m' ρ' _ hagree
  refine ⟨fun c => Cert.KernelIdeal.Val.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Val.result_eq m ρ c), (h c).2⟩)
      (Cert.KernelIdeal.Run.run_named (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7⟩ := hagree c
    rw [Cert.ReferenceIdeal.Read.val_main_v58_eq, Cert.ReferenceIdeal.RefValue.result_eq, e0, e1, e2, e3, e4, e5, e6, e7]
    exact (Cert.Bridge.out_eq _ _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
